-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S5000x128 : Shape := ⟨2, ![5000, 128]⟩
abbrev S600000 : Shape := ⟨1, ![600000]⟩
abbrev S128x128 : Shape := ⟨2, ![128, 128]⟩
abbrev S128 : Shape := ⟨1, ![128]⟩
abbrev S1024 : Shape := ⟨1, ![1024]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S5000x128 : S_.BroadcastsInDim S5000x128 (![] : Fin 0 → Fin S5000x128.rank)
  reducesTo_S5000x128_S_d0_1 : S5000x128.ReducesTo [0, 1] S_
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S600000 1) : IVec S_ 1 :=
  let main_c_5 : IVec S_ 1 := constantI S_ 1 1#1
  let main_v17 : IVec S_ 1 := (fun x v => Host.reduce IntOp.andi x v reducesTo_S600000_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S5000x128 .f32) (main_arg2 : FVec F S600000 .f32) (main_arg3 : FVec F S600000 .f32) (main_arg4 : FVec F S128x128 .f32) (main_arg5 : FVec F S128 .f32) (main_arg6 : IVec S600000 32) (main_arg7 : IVec S600000 32) (main_arg8 : IVec S600000 32) (main_arg9 : IVec S600000 32) (main_arg10 : IVec S1024 32) (main_arg11 : IVec S1024 32) (main_arg12 : IVec S1024 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S5000x128 .f32 := Host.absf main_arg1
  let main_cst_0 : FVec F S_ .f32 := constant S_ .f32 0x7F800000#32
  let main_v5 : FVec F S5000x128 .f32 := broadcastInDim S5000x128 ![] bcast_S_S5000x128 main_cst_0
  let main_v6 : IVec S5000x128 1 := cmpf .olt main_v4 main_v5
  let main_c_1 : IVec S_ 1 := constantI S_ 1 1#1
  let main_v7 : IVec S_ 1 := (fun x v => Host.reduce IntOp.andi x v reducesTo_S5000x128_S_d0_1 h_S_) main_v6 main_c_1
  let main_v8 : IVec S_ 1 := andi main_v3 main_v7
  let main_v9 : FVec F S600000 .f32 := Host.absf main_arg2
  let main_cst_2 : FVec F S_ .f32 := constant S_ .f32 0x7F800000#32
  let main_v10 : FVec F S600000 .f32 := broadcastInDim S600000 ![] bcast_S_S600000 main_cst_2
  let main_v11 : IVec S600000 1 := cmpf .olt main_v9 main_v10
  let main_c_3 : IVec S_ 1 := constantI S_ 1 1#1
  let main_v12 : IVec S_ 1 := (fun x v => Host.reduce IntOp.andi x v reducesTo_S600000_S_d0 h_S_) main_v11 main_c_3
  let main_v13 : IVec S_ 1 := andi main_v8 main_v12
  let main_v14 : FVec F S600000 .f32 := Host.absf main_arg3
  let main_cst_4 : FVec F S_ .f32 := constant S_ .f32 0x7F800000#32
  let main_v15 : FVec F S600000 .f32 := broadcastInDim S600000 ![] bcast_S_S600000 main_cst_4
  let main_v16 : IVec S600000 1 := cmpf .olt main_v14 main_v15
  fn_part1 (F := F) main_arg4 main_arg5 main_v13 main_v16
-- ==== Kernel.lean ====
abbrev S50000x128 : Shape := ⟨2, ![50000, 128]⟩
abbrev S5000x128 : Shape := ⟨2, ![5000, 128]⟩
abbrev S600000 : Shape := ⟨1, ![600000]⟩
abbrev S128x128 : Shape := ⟨2, ![128, 128]⟩
abbrev S128 : Shape := ⟨1, ![128]⟩
abbrev S1024 : Shape := ⟨1, ![1024]⟩
abbrev S_ : Shape := ⟨0, ![]⟩
abbrev S600000x1 : Shape := ⟨2, ![600000, 1]⟩
abbrev S600000x128 : Shape := ⟨2, ![600000, 128]⟩
abbrev S2000x128 : Shape := ⟨2, ![2000, 128]⟩
abbrev S1x128 : Shape := ⟨2, ![1, 128]⟩
abbrev S1000x128 : Shape := ⟨2, ![1000, 128]⟩
abbrev S1024x1 : Shape := ⟨2, ![1024, 1]⟩
abbrev S1024x128 : Shape := ⟨2, ![1024, 128]⟩
abbrev S1x1024x128 : Shape := ⟨3, ![1, 1024, 128]⟩
abbrev S3x1024x128 : Shape := ⟨3, ![3, 1024, 128]⟩

abbrev nBuf : Space → Nat
  | .hbm => 78
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S5000x128, .f32⟩
  | .hbm, ⟨2, _⟩ => ⟨S600000, .f32⟩
  | .hbm, ⟨3, _⟩ => ⟨S600000, .f32⟩
  | .hbm, ⟨4, _⟩ => ⟨S128x128, .f32⟩
  | .hbm, ⟨5, _⟩ => ⟨S128, .f32⟩
  | .hbm, ⟨6, _⟩ => ⟨S600000, .i32⟩
  | .hbm, ⟨7, _⟩ => ⟨S600000, .i32⟩
  | .hbm, ⟨8, _⟩ => ⟨S600000, .i32⟩
  | .hbm, ⟨9, _⟩ => ⟨S600000, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x128, .f32⟩
  | .hbm, ⟨22, _⟩ => ⟨S600000x1, .f32⟩
  | .hbm, ⟨23, _⟩ => ⟨S600000x128, .f32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x128, .f32⟩
  | .hbm, ⟨38, _⟩ => ⟨S600000x1, .f32⟩
  | .hbm, ⟨39, _⟩ => ⟨S600000x128, .f32⟩
  | .hbm, ⟨40, _⟩ => ⟨S600000x128, .f32⟩
  | .hbm, ⟨41, _⟩ => ⟨S_, .f32⟩
  | .hbm, ⟨42, _⟩ => ⟨S5000x128, .f32⟩
  | .hbm, ⟨43, _⟩ => ⟨S600000x1, .i32⟩
  | .hbm, ⟨44, _⟩ => ⟨S5000x128, .f32⟩
  | .hbm, ⟨45, _⟩ => ⟨S50000x128, .f32⟩
  | .hbm, ⟨46, _⟩ => ⟨S5000x128, .f32⟩
  | .hbm, ⟨47, _⟩ => ⟨S_, .i32⟩
  | .hbm, ⟨48, _⟩ => ⟨S1024, .i32⟩
  | .hbm, ⟨49, _⟩ => ⟨S1024, .i1⟩
  | .hbm, ⟨50, _⟩ => ⟨S_, .i32⟩
  | .hbm, ⟨51, _⟩ => ⟨S1024, .i32⟩
  | .hbm, ⟨52, _⟩ => ⟨S1024, .i32⟩
  | .hbm, ⟨53, _⟩ => ⟨S1024, .i32⟩
  | .hbm, ⟨54, _⟩ => ⟨S1024x1, .i32⟩
  | .hbm, ⟨55, _⟩ => ⟨S1024x128, .f32⟩
  | .hbm, ⟨56, _⟩ => ⟨S_, .i32⟩
  | .hbm, ⟨57, _⟩ => ⟨S1024, .i32⟩
  | .hbm, ⟨58, _⟩ => ⟨S1024, .i1⟩
  | .hbm, ⟨59, _⟩ => ⟨S_, .i32⟩
  | .hbm, ⟨60, _⟩ => ⟨S1024, .i32⟩
  | .hbm, ⟨61, _⟩ => ⟨S1024, .i32⟩
  | .hbm, ⟨62, _⟩ => ⟨S1024, .i32⟩
  | .hbm, ⟨63, _⟩ => ⟨S1024x1, .i32⟩
  | .hbm, ⟨64, _⟩ => ⟨S1024x128, .f32⟩
  | .hbm, ⟨65, _⟩ => ⟨S_, .i32⟩
  | .hbm, ⟨66, _⟩ => ⟨S1024, .i32⟩
  | .hbm, ⟨67, _⟩ => ⟨S1024, .i1⟩
  | .hbm, ⟨68, _⟩ => ⟨S_, .i32⟩
  | .hbm, ⟨69, _⟩ => ⟨S1024, .i32⟩
  | .hbm, ⟨70, _⟩ => ⟨S1024, .i32⟩
  | .hbm, ⟨71, _⟩ => ⟨S1024, .i32⟩
  | .hbm, ⟨72, _⟩ => ⟨S1024x1, .i32⟩
  | .hbm, ⟨73, _⟩ => ⟨S1024x128, .f32⟩
  | .hbm, ⟨74, _⟩ => ⟨S1x1024x128, .f32⟩
  | .hbm, ⟨75, _⟩ => ⟨S1x1024x128, .f32⟩
  | .hbm, ⟨76, _⟩ => ⟨S1x1024x128, .f32⟩
  | .hbm, ⟨77, _⟩ => ⟨S3x1024x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S2000x128, .f32⟩
  | .local _ .vmem, ⟨7, _⟩ => ⟨S2000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S128x128, .f32⟩
  | .local _ .vmem, ⟨13, _⟩ => ⟨S128, .f32⟩
  | .local _ .vmem, ⟨14, _⟩ => ⟨S1000x128, .f32⟩
  | .local _ .vmem, ⟨15, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_1 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_8 : Ref sig .tc := ⟨.hbm, 65, rfl⟩
abbrev main_v42 : Ref sig .tc := ⟨.hbm, 66, rfl⟩
abbrev main_v43 : Ref sig .tc := ⟨.hbm, 67, rfl⟩
abbrev main_c_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S_S5000x128 : S_.BroadcastsInDim S5000x128 (![] : Fin 0 → Fin S5000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1x128_S1000x128 : S1x128.Broadcasts S1000x128
  bcast_S_S1024 : S_.BroadcastsInDim S1024 (![] : Fin 0 → Fin S1024.rank)
  bcast_S1024_S1024x1_0 : S1024.BroadcastsInDim S1024x1 (![0] : Fin 1 → Fin S1024x1.rank)
  bcast_S1024x128_S1x1024x128_1_2 : S1024x128.BroadcastsInDim S1x1024x128 (![1, 2] : Fin 2 → Fin S1x1024x128.rank)
  concatenates_S1x1024x128_S1x1024x128_S1x1024x128_S3x1024x128_d0 : Shape.Concatenates [S1x1024x128, S1x1024x128, S1x1024x128] S3x1024x128 0
  gather_S5000x128_S600000x1_S600000x128_1_0_n_n_0_1_1128_wf : GatherDims.WF S5000x128 S600000x1 S600000x128 [1] [0] [] [0] [] 1 ![1, 128]
  scatter_S50000x128_S600000x1_S600000x128_1_0_0_1_wf : ScatterDims.WF S50000x128 S600000x1 S600000x128 [1] [0] [0] 1
  gather_S50000x128_S600000x1_S600000x128_1_0_n_n_0_1_1128_wf : GatherDims.WF S50000x128 S600000x1 S600000x128 [1] [0] [] [0] [] 1 ![1, 128]
  scatter_S5000x128_S600000x1_S600000x128_1_0_0_1_wf : ScatterDims.WF S5000x128 S600000x1 S600000x128 [1] [0] [0] 1
  dot_S2000x128_S128x128_S2000x128_1_0_0_1_n_n_wf : DotDims.WF S2000x128 S128x128 S2000x128 [1] [0] [0] [1] [] []
  dot_S1000x128_S128x128_S1000x128_1_0_0_1_n_n_wf : DotDims.WF S1000x128 S128x128 S1000x128 [1] [0] [0] [1] [] []
  gather_S5000x128_S1024x1_S1024x128_1_0_n_n_0_1_1128_wf : GatherDims.WF S5000x128 S1024x1 S1024x128 [1] [0] [] [0] [] 1 ![1, 128]
  gather_S50000x128_S1024x1_S1024x128_1_0_n_n_0_1_1128_wf : GatherDims.WF S50000x128 S1024x1 S1024x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S5000x128.size a
  hwx1_0 : ∀ i : grid1.Coords, EltTy.bits .f32 = 32 ∨ (Rect.block (s := S5000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S5000x128.size a
  hwx1_1 : ∀ i : grid1.Coords, EltTy.bits .f32 = 32 ∨ (Rect.block (s := S5000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x128.size a ≤ S5000x128.size a
  hwx1_4 : ∀ i : grid1.Coords, EltTy.bits .f32 = 32 ∨ (Rect.block (s := S5000x128) S1000x128.size (cc1_transform_4 i) (hinb1_4 i)).WholeWords (EltTy.packing .f32)

variable [Facts₀]

def gather_S5000x128_S600000x1_S600000x128_1_0_n_n_0_1_1128 : GatherDims S5000x128 S600000x1 S600000x128 where
  offsetDims := [1]
  collapsedSliceDims := [0]
  operandBatchingDims := []
  startIndicesBatchingDims := []
  startIndexMap := [0]
  indexVectorDim := 1
  sliceSizes := ![1, 128]
  wf := gather_S5000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S5000x128_S600000x1_S600000x128_1_0_0_1 : ScatterDims S5000x128 S600000x1 S600000x128 where
  updateWindowDims := [1]
  insertedWindowDims := [0]
  scatterDimsToOperandDims := [0]
  indexVectorDim := 1
  wf := scatter_S5000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S5000x128_S1024x1_S1024x128_1_0_n_n_0_1_1128 : GatherDims S5000x128 S1024x1 S1024x128 where
  offsetDims := [1]
  collapsedSliceDims := [0]
  operandBatchingDims := []
  startIndicesBatchingDims := []
  startIndexMap := [0]
  indexVectorDim := 1
  sliceSizes := ![1, 128]
  wf := gather_S5000x128_S1024x1_S1024x128_1_0_n_n_0_1_1128_wf
def gather_S50000x128_S1024x1_S1024x128_1_0_n_n_0_1_1128 : GatherDims S50000x128 S1024x1 S1024x128 where
  offsetDims := [1]
  collapsedSliceDims := [0]
  operandBatchingDims := []
  startIndicesBatchingDims := []
  startIndexMap := [0]
  indexVectorDim := 1
  sliceSizes := ![1, 128]
  wf := gather_S50000x128_S1024x1_S1024x128_1_0_n_n_0_1_1128_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S5000x128 : Shape := ⟨2, ![5000, 128]⟩
abbrev S600000 : Shape := ⟨1, ![600000]⟩
abbrev S128x128 : Shape := ⟨2, ![128, 128]⟩
abbrev S128 : Shape := ⟨1, ![128]⟩
abbrev S1024 : Shape := ⟨1, ![1024]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S1024x1 : Shape := ⟨2, ![1024, 1]⟩
abbrev S1024x128 : Shape := ⟨2, ![1024, 128]⟩
abbrev S1x1024x128 : Shape := ⟨3, ![1, 1024, 128]⟩
abbrev S3x1024x128 : Shape := ⟨3, ![3, 1024, 128]⟩

abbrev nBuf : Space → Nat
  | .hbm => 126
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S5000x128, .f32⟩
  | .hbm, ⟨2, _⟩ => ⟨S600000, .f32⟩
  | .hbm, ⟨3, _⟩ => ⟨S600000, .f32⟩
  | .hbm, ⟨4, _⟩ => ⟨S128x128, .f32⟩
  | .hbm, ⟨5, _⟩ => ⟨S128, .f32⟩
  | .hbm, ⟨6, _⟩ => ⟨S600000, .i32⟩
  | .hbm, ⟨7, _⟩ => ⟨S600000, .i32⟩
  | .hbm, ⟨8, _⟩ => ⟨S600000, .i32⟩
  | .hbm, ⟨9, _⟩ => ⟨S600000, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x128, .f32⟩
  | .hbm, ⟨22, _⟩ => ⟨S600000x1, .f32⟩
  | .hbm, ⟨23, _⟩ => ⟨S600000x128, .f32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x128, .f32⟩
  | .hbm, ⟨38, _⟩ => ⟨S600000x1, .f32⟩
  | .hbm, ⟨39, _⟩ => ⟨S600000x128, .f32⟩
  | .hbm, ⟨40, _⟩ => ⟨S600000x128, .f32⟩
  | .hbm, ⟨41, _⟩ => ⟨S_, .f32⟩
  | .hbm, ⟨42, _⟩ => ⟨S5000x128, .f32⟩
  | .hbm, ⟨43, _⟩ => ⟨S600000x1, .i32⟩
  | .hbm, ⟨44, _⟩ => ⟨S5000x128, .f32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .i1⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .i1⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S5000x128, .f32⟩
  | .hbm, ⟨71, _⟩ => ⟨S5000x128, .f32⟩
  | .hbm, ⟨72, _⟩ => ⟨S1x128, .f32⟩
  | .hbm, ⟨73, _⟩ => ⟨S5000x128, .f32⟩
  | .hbm, ⟨74, _⟩ => ⟨S5000x128, .f32⟩
  | .hbm, ⟨75, _⟩ => ⟨S_, .f32⟩
  | .hbm, ⟨76, _⟩ => ⟨S5000x128, .f32⟩
  | .hbm, ⟨77, _⟩ => ⟨S5000x128, .i1⟩
  | .hbm, ⟨78, _⟩ => ⟨S_, .f32⟩
  | .hbm, ⟨79, _⟩ => ⟨S5000x128, .f32⟩
  | .hbm, ⟨80, _⟩ => ⟨S5000x128, .f32⟩
  | .hbm, ⟨81, _⟩ => ⟨S5000x128, .f32⟩
  | .hbm, ⟨82, _⟩ => ⟨S5000x128, .f32⟩
  | .hbm, ⟨83, _⟩ => ⟨S5000x128, .f32⟩
  | .hbm, ⟨84, _⟩ => ⟨S1x128, .f32⟩
  | .hbm, ⟨85, _⟩ => ⟨S5000x128, .f32⟩
  | .hbm, ⟨86, _⟩ => ⟨S5000x128, .f32⟩
  | .hbm, ⟨87, _⟩ => ⟨S_, .f32⟩
  | .hbm, ⟨88, _⟩ => ⟨S5000x128, .f32⟩
  | .hbm, ⟨89, _⟩ => ⟨S5000x128, .i1⟩
  | .hbm, ⟨90, _⟩ => ⟨S_, .f32⟩
  | .hbm, ⟨91, _⟩ => ⟨S5000x128, .f32⟩
  | .hbm, ⟨92, _⟩ => ⟨S5000x128, .f32⟩
  | .hbm, ⟨93, _⟩ => ⟨S5000x128, .f32⟩
  | .hbm, ⟨94, _⟩ => ⟨S5000x128, .f32⟩
  | .hbm, ⟨95, _⟩ => ⟨S_, .i32⟩
  | .hbm, ⟨96, _⟩ => ⟨S1024, .i32⟩
  | .hbm, ⟨97, _⟩ => ⟨S1024, .i1⟩
  | .hbm, ⟨98, _⟩ => ⟨S_, .i32⟩
  | .hbm, ⟨99, _⟩ => ⟨S1024, .i32⟩
  | .hbm, ⟨100, _⟩ => ⟨S1024, .i32⟩
  | .hbm, ⟨101, _⟩ => ⟨S1024, .i32⟩
  | .hbm, ⟨102, _⟩ => ⟨S1024x1, .i32⟩
  | .hbm, ⟨103, _⟩ => ⟨S1024x128, .f32⟩
  | .hbm, ⟨104, _⟩ => ⟨S_, .i32⟩
  | .hbm, ⟨105, _⟩ => ⟨S1024, .i32⟩
  | .hbm, ⟨106, _⟩ => ⟨S1024, .i1⟩
  | .hbm, ⟨107, _⟩ => ⟨S_, .i32⟩
  | .hbm, ⟨108, _⟩ => ⟨S1024, .i32⟩
  | .hbm, ⟨109, _⟩ => ⟨S1024, .i32⟩
  | .hbm, ⟨110, _⟩ => ⟨S1024, .i32⟩
  | .hbm, ⟨111, _⟩ => ⟨S1024x1, .i32⟩
  | .hbm, ⟨112, _⟩ => ⟨S1024x128, .f32⟩
  | .hbm, ⟨113, _⟩ => ⟨S_, .i32⟩
  | .hbm, ⟨114, _⟩ => ⟨S1024, .i32⟩
  | .hbm, ⟨115, _⟩ => ⟨S1024, .i1⟩
  | .hbm, ⟨116, _⟩ => ⟨S_, .i32⟩
  | .hbm, ⟨117, _⟩ => ⟨S1024, .i32⟩
  | .hbm, ⟨118, _⟩ => ⟨S1024, .i32⟩
  | .hbm, ⟨119, _⟩ => ⟨S1024, .i32⟩
  | .hbm, ⟨120, _⟩ => ⟨S1024x1, .i32⟩
  | .hbm, ⟨121, _⟩ => ⟨S1024x128, .f32⟩
  | .hbm, ⟨122, _⟩ => ⟨S1x1024x128, .f32⟩
  | .hbm, ⟨123, _⟩ => ⟨S1x1024x128, .f32⟩
  | .hbm, ⟨124, _⟩ => ⟨S1x1024x128, .f32⟩
  | .hbm, ⟨125, _⟩ => ⟨S3x1024x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_1 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call1_cst : Ref sig .tc := ⟨.hbm, 62, rfl⟩
abbrev main_call1_v0 : Ref sig .tc := ⟨.hbm, 63, rfl⟩
abbrev main_call1_v1 : Ref sig .tc := ⟨.hbm, 64, rfl⟩
abbrev main_call1_cst_0 : Ref sig .tc := ⟨.hbm, 65, rfl⟩
abbrev main_call1_v2 : Ref sig .tc := ⟨.hbm, 66, rfl⟩
abbrev main_call1_v3 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_call2_cst : Ref sig .tc := ⟨.hbm, 75, rfl⟩
abbrev main_call2_v0 : Ref sig .tc := ⟨.hbm, 76, rfl⟩
abbrev main_call2_v1 : Ref sig .tc := ⟨.hbm, 77, rfl⟩
abbrev main_call2_cst_0 : Ref sig .tc := ⟨.hbm, 78, rfl⟩
abbrev main_call2_v2 : Ref sig .tc := ⟨.hbm, 79, rfl⟩
abbrev main_call2_v3 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_call3_cst : Ref sig .tc := ⟨.hbm, 87, rfl⟩
abbrev main_call3_v0 : Ref sig .tc := ⟨.hbm, 88, rfl⟩
abbrev main_call3_v1 : Ref sig .tc := ⟨.hbm, 89, rfl⟩
abbrev main_call3_cst_0 : Ref sig .tc := ⟨.hbm, 90, rfl⟩
abbrev main_call3_v2 : Ref sig .tc := ⟨.hbm, 91, rfl⟩
abbrev main_call3_v3 : Ref sig .tc := ⟨.hbm, 92, rfl⟩
abbrev main_v50 : Ref sig .tc := ⟨.hbm, 93, rfl⟩
abbrev main_v51 : Ref sig .tc := ⟨.hbm, 94, rfl⟩
abbrev main_c_4 : Ref sig .tc := ⟨.hbm, 95, rfl⟩
abbrev main_v52 : Ref sig .tc := ⟨.hbm, 96, rfl⟩
abbrev main_v53 : Ref sig .tc := ⟨.hbm, 97, rfl⟩
abbrev main_c_5 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_c_6 : Ref sig .tc := ⟨.hbm, 104, rfl⟩
abbrev main_v59 : Ref sig .tc := ⟨.hbm, 105, rfl⟩
abbrev main_v60 : Ref sig .tc := ⟨.hbm, 106, rfl⟩
abbrev main_c_7 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_c_8 : Ref sig .tc := ⟨.hbm, 113, rfl⟩
abbrev main_v66 : Ref sig .tc := ⟨.hbm, 114, rfl⟩
abbrev main_v67 : Ref sig .tc := ⟨.hbm, 115, rfl⟩
abbrev main_c_9 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S_S5000x128 : S_.BroadcastsInDim S5000x128 (![] : Fin 0 → Fin S5000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S5000x128_0_1 : S1x128.BroadcastsInDim S5000x128 (![0, 1] : Fin 2 → Fin S5000x128.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x128_S1x1024x128_1_2 : S1024x128.BroadcastsInDim S1x1024x128 (![1, 2] : Fin 2 → Fin S1x1024x128.rank)
  concatenates_S1x1024x128_S1x1024x128_S1x1024x128_S3x1024x128_d0 : Shape.Concatenates [S1x1024x128, S1x1024x128, S1x1024x128] S3x1024x128 0
  gather_S5000x128_S600000x1_S600000x128_1_0_n_n_0_1_1128_wf : GatherDims.WF S5000x128 S600000x1 S600000x128 [1] [0] [] [0] [] 1 ![1, 128]
  scatter_S50000x128_S600000x1_S600000x128_1_0_0_1_wf : ScatterDims.WF S50000x128 S600000x1 S600000x128 [1] [0] [0] 1
  gather_S50000x128_S600000x1_S600000x128_1_0_n_n_0_1_1128_wf : GatherDims.WF S50000x128 S600000x1 S600000x128 [1] [0] [] [0] [] 1 ![1, 128]
  scatter_S5000x128_S600000x1_S600000x128_1_0_0_1_wf : ScatterDims.WF S5000x128 S600000x1 S600000x128 [1] [0] [0] 1
  dot_S50000x128_S128x128_S50000x128_1_0_0_1_n_n_wf : DotDims.WF S50000x128 S128x128 S50000x128 [1] [0] [0] [1] [] []
  dot_S5000x128_S128x128_S5000x128_1_0_0_1_n_n_wf : DotDims.WF S5000x128 S128x128 S5000x128 [1] [0] [0] [1] [] []
  gather_S5000x128_S1024x1_S1024x128_1_0_n_n_0_1_1128_wf : GatherDims.WF S5000x128 S1024x1 S1024x128 [1] [0] [] [0] [] 1 ![1, 128]
  gather_S50000x128_S1024x1_S1024x128_1_0_n_n_0_1_1128_wf : GatherDims.WF S50000x128 S1024x1 S1024x128 [1] [0] [] [0] [] 1 ![1, 128]

variable [Facts₀]

def gather_S5000x128_S600000x1_S600000x128_1_0_n_n_0_1_1128 : GatherDims S5000x128 S600000x1 S600000x128 where
  offsetDims := [1]
  collapsedSliceDims := [0]
  operandBatchingDims := []
  startIndicesBatchingDims := []
  startIndexMap := [0]
  indexVectorDim := 1
  sliceSizes := ![1, 128]
  wf := gather_S5000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S5000x128_S600000x1_S600000x128_1_0_0_1 : ScatterDims S5000x128 S600000x1 S600000x128 where
  updateWindowDims := [1]
  insertedWindowDims := [0]
  scatterDimsToOperandDims := [0]
  indexVectorDim := 1
  wf := scatter_S5000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S5000x128_S1024x1_S1024x128_1_0_n_n_0_1_1128 : GatherDims S5000x128 S1024x1 S1024x128 where
  offsetDims := [1]
  collapsedSliceDims := [0]
  operandBatchingDims := []
  startIndicesBatchingDims := []
  startIndexMap := [0]
  indexVectorDim := 1
  sliceSizes := ![1, 128]
  wf := gather_S5000x128_S1024x1_S1024x128_1_0_n_n_0_1_1128_wf
def gather_S50000x128_S1024x1_S1024x128_1_0_n_n_0_1_1128 : GatherDims S50000x128 S1024x1 S1024x128 where
  offsetDims := [1]
  collapsedSliceDims := [0]
  operandBatchingDims := []
  startIndicesBatchingDims := []
  startIndexMap := [0]
  indexVectorDim := 1
  sliceSizes := ![1, 128]
  wf := gather_S50000x128_S1024x1_S1024x128_1_0_n_n_0_1_1128_wf

class Facts : Prop extends Facts₀ where

variable [Facts]
-- ==== Proof.KBody.lean ====
/-
  The two row-tiled kernels of `Kernel`, each as a pipeline body: a grid point holds a tile of rows of the node
  features `v` and of the aggregated messages `nh`, the whole weight matrix `W` and the whole bias `b`, and writes the
  tile `leaky((v + nh)·W + b) + leaky((v ∘ nh)·W + b)` of the output. Stated for any float instance `F`: what the body
  leaves in the output tile is the one stored payload over the four loaded blocks (`out0_4`, `out1_4`), the body's
  triple is run symbolically, and the proof data say that inputs keep their blocks and the output takes that payload.
  Region 0 tiles 50000 rows by 2000 (25 points), region 1 tiles 5000 rows by 1000 (5 points).
-/
import proofs.«155794_j12773232738836_1_alg».proof.Proof.KLaunch
import proofs.«155794_j12773232738836_1_alg».proof.Proof.Gen.Kernel.Skeleton
import proofs.«155794_j12773232738836_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: each region's half is stated at this parameter
variable (V : (c : Dev nD) → (b : Ref sig .tc) → Buf (Elt F) ((c : Thread nD τ).loc b))

/-! # Region 0: `cc0__dual_kernel` on row tiles of shape S2000x128, at the entry contents `V`

Its five windows: 0 the node features' row tile, 1 the aggregated messages' row tile (the same rows), 2 the weight matrix
and 3 the bias, both whole at every point, 4 the output row tile. -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether that point fetched it or an earlier
    one did (then its block index has not moved), for any proof data over the entry arrays that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether that point fetched it or an earlier
    one did (then its block index has not moved), for any proof data over the entry arrays that leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether that point fetched it or an earlier
    one did (then its block index has not moved), for any proof data over the entry arrays that leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether that point fetched it or an earlier
    one did (then its block index has not moved), for any proof data over the entry arrays that leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole row tile, the whole weight matrix, the whole bias: the rectangles the body loads and stores through. -/
abbrev r0_a : Rect S2000x128 := Rect.unit (s := S2000x128) ![0, 0] S2000x128.size inb_S2000x128_S2000x128_0_0
abbrev r0_w : Rect S128x128 := Rect.unit (s := S128x128) ![0, 0] S128x128.size inb_S128x128_S128x128_0_0
abbrev r0_b : Rect S128 := Rect.unit (s := S128) ![0] S128.size inb_S128_S128_0

/-- What the body leaves in the output tile's buffer, from the four input blocks: its one store, of the payload
    (both branches' affine maps, leaky-rectified and added) over the loaded tiles, covering the whole tile. -/
def out0_4 (x0 x1 : Vec F S2000x128 .f32) (x2 : Vec F S128x128 .f32) (x3 : Vec F S128 .f32) : Vec F S2000x128 .f32 :=
  View.canon [⟨r0_a, k0_pay1 (View.ld x0 r0_a) (View.ld x1 r0_a) (View.ld x2 r0_w) (View.ld x3 r0_b)⟩]

/-- The one store's rectangle is the whole tile, so every position of the buffer is covered. -/
theorem cover0_4 (p0 : Vec F S2000x128 .f32) (y : S2000x128.Idx) :
    ∃ pc ∈ ([⟨r0_a, p0⟩] : List (View.Piece (Elt F) S2000x128 .f32)), y ∈ pc.1.set :=
  View.cover_of_tiled [⟨r0_a, p0⟩] S2000x128.size (by rfl) y

set_option maxHeartbeats 1000000 in
/-- The body on whole staging buffers — the four inputs' at contents `x0 … x3`, the output's at anything — runs to its
    continuation with the inputs' buffers as they were and the output's at `out0_4` of them: it loads the four inputs
    (and the output's old contents, which it does not use) and stores the payload over the whole tile. -/
theorem sound_kernel0 (c : Dev nD) (E : Set ℕ) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S128 .f32) (harg4 : arg4.IsWhole) (arg5 : Memref sig .tc .vmem S2000x128 .f32) (harg5 : arg5.IsWhole)
    (x0 x1 : Vec F S2000x128 .f32) (x2 : Vec F S128x128 .f32) (x3 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__dual_kernel i arg1 harg1 arg2 harg2 arg3 harg3 arg4 harg4 arg5 harg5) K := by
  simp only [cc0__dual_kernel_eq_skeleton]; unfold cc0__dual_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The proof data of pipeline 0 on core `c`: the arrays as the region finds them; after the body at point `t` each
    input's buffer still at its block and the output's at `out0_4` of the four blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the five windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' staging buffers hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: `cc1__dual_kernel` on row tiles of shape S1000x128, at the entry contents `V`

Its five windows: 0 the node features' row tile, 1 the aggregated messages' row tile (the same rows), 2 the weight matrix
and 3 the bias, both whole at every point, 4 the output row tile. -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether that point fetched it or an earlier
    one did (then its block index has not moved), for any proof data over the entry arrays that leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether that point fetched it or an earlier
    one did (then its block index has not moved), for any proof data over the entry arrays that leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether that point fetched it or an earlier
    one did (then its block index has not moved), for any proof data over the entry arrays that leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether that point fetched it or an earlier
    one did (then its block index has not moved), for any proof data over the entry arrays that leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole row tile, the whole weight matrix, the whole bias: the rectangles the body loads and stores through. -/
abbrev r1_a : Rect S1000x128 := Rect.unit (s := S1000x128) ![0, 0] S1000x128.size inb_S1000x128_S1000x128_0_0
abbrev r1_w : Rect S128x128 := Rect.unit (s := S128x128) ![0, 0] S128x128.size inb_S128x128_S128x128_0_0
abbrev r1_b : Rect S128 := Rect.unit (s := S128) ![0] S128.size inb_S128_S128_0

/-- What the body leaves in the output tile's buffer, from the four input blocks: its one store, of the payload
    (both branches' affine maps, leaky-rectified and added) over the loaded tiles, covering the whole tile. -/
def out1_4 (x0 x1 : Vec F S1000x128 .f32) (x2 : Vec F S128x128 .f32) (x3 : Vec F S128 .f32) : Vec F S1000x128 .f32 :=
  View.canon [⟨r1_a, k1_pay1 (View.ld x0 r1_a) (View.ld x1 r1_a) (View.ld x2 r1_w) (View.ld x3 r1_b)⟩]

/-- The one store's rectangle is the whole tile, so every position of the buffer is covered. -/
theorem cover1_4 (p0 : Vec F S1000x128 .f32) (y : S1000x128.Idx) :
    ∃ pc ∈ ([⟨r1_a, p0⟩] : List (View.Piece (Elt F) S1000x128 .f32)), y ∈ pc.1.set :=
  View.cover_of_tiled [⟨r1_a, p0⟩] S1000x128.size (by rfl) y

set_option maxHeartbeats 1000000 in
/-- The body on whole staging buffers — the four inputs' at contents `x0 … x3`, the output's at anything — runs to its
    continuation with the inputs' buffers as they were and the output's at `out1_4` of them: it loads the four inputs
    (and the output's old contents, which it does not use) and stores the payload over the whole tile. -/
theorem sound_kernel1 (c : Dev nD) (E : Set ℕ) (i : grid1.Coords) (arg1 : Memref sig .tc .vmem S1000x128 .f32) (harg1 : arg1.IsWhole) (arg2 : Memref sig .tc .vmem S1000x128 .f32) (harg2 : arg2.IsWhole)
    (arg3 : Memref sig .tc .vmem S128x128 .f32) (harg3 : arg3.IsWhole) (arg4 : Memref sig .tc .vmem S128 .f32) (harg4 : arg4.IsWhole) (arg5 : Memref sig .tc .vmem S1000x128 .f32) (harg5 : arg5.IsWhole)
    (x0 x1 : Vec F S1000x128 .f32) (x2 : Vec F S128x128 .f32) (x3 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__dual_kernel i arg1 harg1 arg2 harg2 arg3 harg3 arg4 harg4 arg5 harg5) K := by
  simp only [cc1__dual_kernel_eq_skeleton]; unfold cc1__dual_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of pipeline 1 on core `c`: the arrays as the region finds them; after the body at point `t` each
    input's buffer still at its block and the output's at `out1_4` of the four blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the five windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' staging buffers hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  `Kernel`'s @main from launch to return, as four segments: the host operations that gather, scale and segment-sum the
  messages; the row-tiled kernel over the 50000 grid nodes; the same kernel over the 5000 category nodes; the host
  operations that gather 3 × 1024 rows of the two results and stack them. The contents of every unscoped buffer are
  followed through the segments as a fold from the launch memory (`W0 … W4`): a host stretch applies its operations,
  a region replaces its five arrays by what its write-backs leave (inputs unchanged, the output array the tiles the
  points wrote). The run says that every weakly fair execution terminates with every unscoped buffer at `W4`; the frame
  (each argument array as launched) and the result buffer's contents are read off it. For any float instance `F`.
-/
import proofs.«155794_j12773232738836_1_alg».proof.Proof.KBody

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the host stretches write -/

/-- The buffers `hostOps0`'s operations write: each operation writes its one result buffer. -/
abbrev hostOps0_W : List (Ref sig .tc) := [main_c, main_v0, main_v1, main_c_0, main_v2, main_v3, main_v4, main_v5, main_v6, main_v7, main_v8, main_v9, main_cst, main_v10, main_v11, main_v12, main_c_1, main_v13, main_v14, main_c_2, main_v15, main_v16, main_v17, main_v18, main_v19, main_v20, main_v21, main_v22, main_cst_3, main_v23, main_v24, main_v25]
theorem hostOps0_writes : (hostOps0 : List (HloOp τ sig (Elt F))).Forall fun op => op.writes ⊆ (hostOps0_W.map (Proc.devRef (τ := τ) .tc)).toFinset := by
  simp only [List.Forall]
  repeat' apply And.intro
  all_goals
    simp only [StableHlo.nullary_writes, StableHlo.unary_writes, StableHlo.binary_writes, StableHlo.ternary_writes, StableHlo.nary_writes,
      Finset.singleton_subset_iff, List.mem_toFinset]
    exact List.mem_map_of_mem (by decide)
/-- No operation of `hostOps0` allocates a buffer. -/
theorem hostOps0_fresh : (hostOps0 : List (HloOp τ sig (Elt F))).Forall fun op => op.fresh = ∅ := by
  simp only [List.Forall]; repeat' constructor

/-- The buffers `hostOps2`'s operations write: each operation writes its one result buffer. -/
abbrev hostOps2_W : List (Ref sig .tc) := [main_c_4, main_v28, main_v29, main_c_5, main_v30, main_v31, main_v32, main_v33, main_v34, main_c_6, main_v35, main_v36, main_c_7, main_v37, main_v38, main_v39, main_v40, main_v41, main_c_8, main_v42, main_v43, main_c_9, main_v44, main_v45, main_v46, main_v47, main_v48, main_v49, main_v50, main_v51, main_v52]
theorem hostOps2_writes : (hostOps2 : List (HloOp τ sig (Elt F))).Forall fun op => op.writes ⊆ (hostOps2_W.map (Proc.devRef (τ := τ) .tc)).toFinset := by
  simp only [List.Forall]
  repeat' apply And.intro
  all_goals
    simp only [StableHlo.nullary_writes, StableHlo.unary_writes, StableHlo.binary_writes, StableHlo.ternary_writes, StableHlo.nary_writes,
      Finset.singleton_subset_iff, List.mem_toFinset]
    exact List.mem_map_of_mem (by decide)
/-- No operation of `hostOps2` allocates a buffer. -/
theorem hostOps2_fresh : (hostOps2 : List (HloOp τ sig (Elt F))).Forall fun op => op.fresh = ∅ := by
  simp only [List.Forall]; repeat' constructor

/-! ## The buffer contents at each segment boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit (region 1's entry: no host operation stands between them): its arrays at what the pipeline
    leaves — the inputs as entered, the output the folded write-backs — and every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit, likewise. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last host stretch: what the program returns with. -/
abbrev W4 : Dev nD → Valuation τ sig (Elt F) := fun c => StableHlo.after hostOps2 (W3 m c)

/-! ## The arguments end as launched

No host operation writes an argument, and a region reads one through an input window (whose array its write-backs
leave as entered) or not at all, so the fold at an argument's buffer walks back to the launch memory. -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := (W3_arr m c 0).trans (((dat1 (V2 m) c).arrAt_in 0 rfl _).trans (A_eq1 (V2 m) c 0))
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (by decide)
    _ = W2 m c (Proc.devRef .tc main_arg4) := (W3_arr m c 2).trans (((dat1 (V2 m) c).arrAt_in 2 rfl _).trans (A_eq1 (V2 m) c 2))
    _ = W1 m c (Proc.devRef .tc main_arg4) := (W2_arr m c 2).trans (((dat0 (V1 m) c).arrAt_in 2 rfl _).trans (A_eq0 (V1 m) c 2))
    _ = W0 m c (Proc.devRef .tc main_arg4) := StableHlo.after_of_writes_sub hostOps0 _ hostOps0_writes (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (by decide)
    _ = W2 m c (Proc.devRef .tc main_arg5) := (W3_arr m c 3).trans (((dat1 (V2 m) c).arrAt_in 3 rfl _).trans (A_eq1 (V2 m) c 3))
    _ = W1 m c (Proc.devRef .tc main_arg5) := (W2_arr m c 3).trans (((dat0 (V1 m) c).arrAt_in 3 rfl _).trans (A_eq0 (V1 m) c 3))
    _ = W0 m c (Proc.devRef .tc main_arg5) := StableHlo.after_of_writes_sub hostOps0 _ hostOps0_writes (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_writes_sub hostOps2 _ hostOps2_writes (by decide)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem W4_main_arg7 (c : Dev nD) : W4 m c (Proc.devRef .tc main_arg7) = m ((c : Thread nD τ).loc main_arg7) :=
  calc W4 m c (Proc.devRef .tc main_arg7)
    _ = W3 m c (Proc.devRef .tc main_arg7) := StableHlo.after_of_writes_sub hostOps2 _ hostOps2_writes (by decide)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl
theorem W4_main_arg8 (c : Dev nD) : W4 m c (Proc.devRef .tc main_arg8) = m ((c : Thread nD τ).loc main_arg8) :=
  calc W4 m c (Proc.devRef .tc main_arg8)
    _ = W3 m c (Proc.devRef .tc main_arg8) := StableHlo.after_of_writes_sub hostOps2 _ hostOps2_writes (by decide)
    _ = W2 m c (Proc.devRef .tc main_arg8) := W3_of_ne m c main_arg8 (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl
theorem W4_main_arg9 (c : Dev nD) : W4 m c (Proc.devRef .tc main_arg9) = m ((c : Thread nD τ).loc main_arg9) :=
  calc W4 m c (Proc.devRef .tc main_arg9)
    _ = W3 m c (Proc.devRef .tc main_arg9) := StableHlo.after_of_writes_sub hostOps2 _ hostOps2_writes (by decide)
    _ = W2 m c (Proc.devRef .tc main_arg9) := W3_of_ne m c main_arg9 (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl
theorem W4_main_arg10 (c : Dev nD) : W4 m c (Proc.devRef .tc main_arg10) = m ((c : Thread nD τ).loc main_arg10) :=
  calc W4 m c (Proc.devRef .tc main_arg10)
    _ = W3 m c (Proc.devRef .tc main_arg10) := StableHlo.after_of_writes_sub hostOps2 _ hostOps2_writes (by decide)
    _ = W2 m c (Proc.devRef .tc main_arg10) := W3_of_ne m c main_arg10 (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl
theorem W4_main_arg11 (c : Dev nD) : W4 m c (Proc.devRef .tc main_arg11) = m ((c : Thread nD τ).loc main_arg11) :=
  calc W4 m c (Proc.devRef .tc main_arg11)
    _ = W3 m c (Proc.devRef .tc main_arg11) := StableHlo.after_of_writes_sub hostOps2 _ hostOps2_writes (by decide)
    _ = W2 m c (Proc.devRef .tc main_arg11) := W3_of_ne m c main_arg11 (by decide)
    _ = W1 m c (Proc.devRef .tc main_arg11) := W2_of_ne m c main_arg11 (by decide)
    _ = W0 m c (Proc.devRef .tc main_arg11) := StableHlo.after_of_writes_sub hostOps0 _ hostOps0_writes (by decide)
    _ = m ((c : Thread nD τ).loc main_arg11) := rfl
theorem W4_main_arg12 (c : Dev nD) : W4 m c (Proc.devRef .tc main_arg12) = m ((c : Thread nD τ).loc main_arg12) :=
  calc W4 m c (Proc.devRef .tc main_arg12)
    _ = W3 m c (Proc.devRef .tc main_arg12) := StableHlo.after_of_writes_sub hostOps2 _ hostOps2_writes (by decide)
    _ = W2 m c (Proc.devRef .tc main_arg12) := W3_of_ne m c main_arg12 (by decide)
    _ = W1 m c (Proc.devRef .tc main_arg12) := W2_of_ne m c main_arg12 (by decide)
    _ = W0 m c (Proc.devRef .tc main_arg12) := StableHlo.after_of_writes_sub hostOps0 _ hostOps0_writes (by decide)
    _ = m ((c : Thread nD τ).loc main_arg12) := rfl

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at `W4`, the generator register at some state. -/
abbrev Tₙ (c : Dev nD) : sProp 𝕄 := iprop(StableHlo.held (c : Thread nD τ) (Pipeline.ucRefs τ sig) (W4 m c) ∗ ∃ r, prngReg c r)

/-! ## The regions as segments -/

-- the pipeline's configuration is reached through a definition, which unification must be allowed to unfold here
set_option backward.isDefEq.respectTransparency.types false in
/-- Region 0 over the thread state: entered with every unscoped buffer at `W1`, left with them at `W2`. Its five
    arrays are split out of the unscoped buffers on entry and put back at what the write-backs leave on exit; the
    generator register goes into the pipeline's invariant and comes back; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pipeline's configuration is reached through a definition, which unification must be allowed to unfold here
set_option backward.isDefEq.respectTransparency.types false in
/-- Region 1 over the thread state: entered with every unscoped buffer at `W2`, left with them at `W3`. Its five
    arrays are split out of the unscoped buffers on entry and put back at what the write-backs leave on exit; the
    generator register goes into the pipeline's invariant and comes back; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's four segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
/-- @main is the run of the segments. -/
theorem main_run (c : Dev nD) : main (F := F) c = Pipeline.Seg.run (segs m) := (main_chain c).trans (by chain_rfl)

set_option backward.isDefEq.respectTransparency.types false in
/-- THE RUN: from any memory with zero counters, every weakly fair execution of @main on the TensorCores terminates,
    nothing faulting, and the final memory holds every unscoped buffer at the fold's last contents `W4`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The run with the result buffer named and the arguments read back: the result `main_v52` ends at the fold's last
    contents there, each argument array as launched. -/
theorem run_res (ρ : Dev nD → PrngReg) : θ_run defs (onTc (τ := τ) (main (F := F))) ⟨m, fun _ => 0, ρ⟩ (fun r => ∀ c : Dev nD,
      r.2.mem ((c.tc : Thread nD τ).loc main_v52) = W4 m c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v52 (by decide)),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c),
     (h c _ (mem_uc main_arg8 (by decide))).trans (W4_main_arg8 m c),
     (h c _ (mem_uc main_arg9 (by decide))).trans (W4_main_arg9 m c),
     (h c _ (mem_uc main_arg10 (by decide))).trans (W4_main_arg10 m c),
     (h c _ (mem_uc main_arg11 (by decide))).trans (W4_main_arg11 m c),
     (h c _ (mem_uc main_arg12 (by decide))).trans (W4_main_arg12 m c)⟩) (run_all m ρ)

/-- THE FRAME: every weakly fair execution terminates, nothing faulting, each argument array ending as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => (h c).2) (run_res m ρ)

end Cert.Kernel.Hand

end
-- ==== Proof.KIBody.lean ====
/-
  The two row-tiled kernels of `KernelIdeal`, each as a pipeline body: a grid point holds a tile of rows of the node
  features `v` and of the aggregated messages `nh`, the whole weight matrix `W` and the whole bias `b`, and writes the
  tile `leaky((v + nh)·W + b) + leaky((v ∘ nh)·W + b)` of the output. Stated for any float instance `F`: what the body
  leaves in the output tile is the one stored payload over the four loaded blocks (`out0_4`, `out1_4`), the body's
  triple is run symbolically, and the proof data say that inputs keep their blocks and the output takes that payload.
  Region 0 tiles 50000 rows by 2000 (25 points), region 1 tiles 5000 rows by 1000 (5 points).
-/
import proofs.«155794_j12773232738836_1_alg».proof.Proof.KILaunch
import proofs.«155794_j12773232738836_1_alg».proof.Proof.Gen.KernelIdeal.Skeleton
import proofs.«155794_j12773232738836_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: each region's half is stated at this parameter
variable (V : (c : Dev nD) → (b : Ref sig .tc) → Buf (Elt F) ((c : Thread nD τ).loc b))

/-! # Region 0: `cc0__dual_kernel` on row tiles of shape S2000x128, at the entry contents `V`

Its five windows: 0 the node features' row tile, 1 the aggregated messages' row tile (the same rows), 2 the weight matrix
and 3 the bias, both whole at every point, 4 the output row tile. -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether that point fetched it or an earlier
    one did (then its block index has not moved), for any proof data over the entry arrays that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether that point fetched it or an earlier
    one did (then its block index has not moved), for any proof data over the entry arrays that leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether that point fetched it or an earlier
    one did (then its block index has not moved), for any proof data over the entry arrays that leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether that point fetched it or an earlier
    one did (then its block index has not moved), for any proof data over the entry arrays that leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole row tile, the whole weight matrix, the whole bias: the rectangles the body loads and stores through. -/
abbrev r0_a : Rect S2000x128 := Rect.unit (s := S2000x128) ![0, 0] S2000x128.size inb_S2000x128_S2000x128_0_0
abbrev r0_w : Rect S128x128 := Rect.unit (s := S128x128) ![0, 0] S128x128.size inb_S128x128_S128x128_0_0
abbrev r0_b : Rect S128 := Rect.unit (s := S128) ![0] S128.size inb_S128_S128_0

/-- What the body leaves in the output tile's buffer, from the four input blocks: its one store, of the payload
    (both branches' affine maps, leaky-rectified and added) over the loaded tiles, covering the whole tile. -/
def out0_4 (x0 x1 : Vec F S2000x128 .f32) (x2 : Vec F S128x128 .f32) (x3 : Vec F S128 .f32) : Vec F S2000x128 .f32 :=
  View.canon [⟨r0_a, k0_pay1 (View.ld x0 r0_a) (View.ld x1 r0_a) (View.ld x2 r0_w) (View.ld x3 r0_b)⟩]

/-- The one store's rectangle is the whole tile, so every position of the buffer is covered. -/
theorem cover0_4 (p0 : Vec F S2000x128 .f32) (y : S2000x128.Idx) :
    ∃ pc ∈ ([⟨r0_a, p0⟩] : List (View.Piece (Elt F) S2000x128 .f32)), y ∈ pc.1.set :=
  View.cover_of_tiled [⟨r0_a, p0⟩] S2000x128.size (by rfl) y

set_option maxHeartbeats 1000000 in
/-- The body on whole staging buffers — the four inputs' at contents `x0 … x3`, the output's at anything — runs to its
    continuation with the inputs' buffers as they were and the output's at `out0_4` of them: it loads the four inputs
    (and the output's old contents, which it does not use) and stores the payload over the whole tile. -/
theorem sound_kernel0 (c : Dev nD) (E : Set ℕ) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S128 .f32) (harg4 : arg4.IsWhole) (arg5 : Memref sig .tc .vmem S2000x128 .f32) (harg5 : arg5.IsWhole)
    (x0 x1 : Vec F S2000x128 .f32) (x2 : Vec F S128x128 .f32) (x3 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__dual_kernel i arg1 harg1 arg2 harg2 arg3 harg3 arg4 harg4 arg5 harg5) K := by
  simp only [cc0__dual_kernel_eq_skeleton]; unfold cc0__dual_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The proof data of pipeline 0 on core `c`: the arrays as the region finds them; after the body at point `t` each
    input's buffer still at its block and the output's at `out0_4` of the four blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the five windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' staging buffers hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: `cc1__dual_kernel` on row tiles of shape S1000x128, at the entry contents `V`

Its five windows: 0 the node features' row tile, 1 the aggregated messages' row tile (the same rows), 2 the weight matrix
and 3 the bias, both whole at every point, 4 the output row tile. -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether that point fetched it or an earlier
    one did (then its block index has not moved), for any proof data over the entry arrays that leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether that point fetched it or an earlier
    one did (then its block index has not moved), for any proof data over the entry arrays that leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether that point fetched it or an earlier
    one did (then its block index has not moved), for any proof data over the entry arrays that leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether that point fetched it or an earlier
    one did (then its block index has not moved), for any proof data over the entry arrays that leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole row tile, the whole weight matrix, the whole bias: the rectangles the body loads and stores through. -/
abbrev r1_a : Rect S1000x128 := Rect.unit (s := S1000x128) ![0, 0] S1000x128.size inb_S1000x128_S1000x128_0_0
abbrev r1_w : Rect S128x128 := Rect.unit (s := S128x128) ![0, 0] S128x128.size inb_S128x128_S128x128_0_0
abbrev r1_b : Rect S128 := Rect.unit (s := S128) ![0] S128.size inb_S128_S128_0

/-- What the body leaves in the output tile's buffer, from the four input blocks: its one store, of the payload
    (both branches' affine maps, leaky-rectified and added) over the loaded tiles, covering the whole tile. -/
def out1_4 (x0 x1 : Vec F S1000x128 .f32) (x2 : Vec F S128x128 .f32) (x3 : Vec F S128 .f32) : Vec F S1000x128 .f32 :=
  View.canon [⟨r1_a, k1_pay1 (View.ld x0 r1_a) (View.ld x1 r1_a) (View.ld x2 r1_w) (View.ld x3 r1_b)⟩]

/-- The one store's rectangle is the whole tile, so every position of the buffer is covered. -/
theorem cover1_4 (p0 : Vec F S1000x128 .f32) (y : S1000x128.Idx) :
    ∃ pc ∈ ([⟨r1_a, p0⟩] : List (View.Piece (Elt F) S1000x128 .f32)), y ∈ pc.1.set :=
  View.cover_of_tiled [⟨r1_a, p0⟩] S1000x128.size (by rfl) y

set_option maxHeartbeats 1000000 in
/-- The body on whole staging buffers — the four inputs' at contents `x0 … x3`, the output's at anything — runs to its
    continuation with the inputs' buffers as they were and the output's at `out1_4` of them: it loads the four inputs
    (and the output's old contents, which it does not use) and stores the payload over the whole tile. -/
theorem sound_kernel1 (c : Dev nD) (E : Set ℕ) (i : grid1.Coords) (arg1 : Memref sig .tc .vmem S1000x128 .f32) (harg1 : arg1.IsWhole) (arg2 : Memref sig .tc .vmem S1000x128 .f32) (harg2 : arg2.IsWhole)
    (arg3 : Memref sig .tc .vmem S128x128 .f32) (harg3 : arg3.IsWhole) (arg4 : Memref sig .tc .vmem S128 .f32) (harg4 : arg4.IsWhole) (arg5 : Memref sig .tc .vmem S1000x128 .f32) (harg5 : arg5.IsWhole)
    (x0 x1 : Vec F S1000x128 .f32) (x2 : Vec F S128x128 .f32) (x3 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__dual_kernel i arg1 harg1 arg2 harg2 arg3 harg3 arg4 harg4 arg5 harg5) K := by
  simp only [cc1__dual_kernel_eq_skeleton]; unfold cc1__dual_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of pipeline 1 on core `c`: the arrays as the region finds them; after the body at point `t` each
    input's buffer still at its block and the output's at `out1_4` of the four blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the five windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' staging buffers hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Spec.lean ====
/-
  The function both programs compute on a node set, on the exact extended reals.

  For a node with feature row `v`, aggregated message row `nh`, weight matrix `W` and bias `b`, output column `q` is
      leaky (∑ₖ (vₖ + nhₖ) · W(k, q) + b_q) + leaky (∑ₖ (vₖ · nhₖ) · W(k, q) + b_q),
  where `leaky x` is `x` when `x ≥ 0` and `c · x` otherwise, `c` the single-precision word 0x3C23D70A (the float nearest
  0.01). A row of the result depends on the same row of `v` and `nh` only, which is why the row tiles of the kernel
  assemble to the whole-array function.
-/
import Idealize.ShloMosaic.PureOps.Ideal
import Idealize.ShloMosaic.Lib.ValueIdx

noncomputable section

namespace Cert.Spec

open Idealize.ShloMosaic Idealize.ShloMosaic.ValueIdx

/-- The leaky rectifier as both programs spell it: an ordered `≥` against the zero word selects `x`, else `c · x`. -/
def lk (x : Ideal .f32) : Ideal .f32 :=
  Scalar.select (FloatOps.cmpf .oge x (Ideal.ofBits .f32 0x00000000#32)) x (Ideal.ofBits .f32 0x3C23D70A#32 * x)

/-- One output entry from one row of `v`, one row of `nh`, one column of `W` and one bias entry. -/
def dualAt (v nh w : Fin 128 → Ideal .f32) (b : Ideal .f32) : Ideal .f32 :=
  lk ((∑ k : Fin 128, (v k + nh k) * w k) + b) + lk ((∑ k : Fin 128, (v k * nh k) * w k) + b)

/-- The whole result for a node set of `M` rows, index by index. -/
def dual {M : Nat} (v nh : (⟨2, ![M, 128]⟩ : Shape).Idx → Ideal .f32) (W : (⟨2, ![128, 128]⟩ : Shape).Idx → Ideal .f32)
    (b : (⟨1, ![128]⟩ : Shape).Idx → Ideal .f32) : (⟨2, ![M, 128]⟩ : Shape).Idx → Ideal .f32 :=
  fun i => dualAt (fun k => v (ix2 (i 0) k)) (fun k => nh (ix2 (i 0) k)) (fun k => W (ix2 k (i 1))) (b (ix1 (i 1)))

/-- An entry of the result is determined by the row of `v` and of `nh`, the column of `W` and the entry of `b` it reads: two
    node sets (of any sizes) that agree there agree at that entry. -/
theorem dual_congr {M M' : Nat} (v nh : (⟨2, ![M, 128]⟩ : Shape).Idx → Ideal .f32) (W : (⟨2, ![128, 128]⟩ : Shape).Idx → Ideal .f32)
    (b : (⟨1, ![128]⟩ : Shape).Idx → Ideal .f32) (v' nh' : (⟨2, ![M', 128]⟩ : Shape).Idx → Ideal .f32)
    (W' : (⟨2, ![128, 128]⟩ : Shape).Idx → Ideal .f32) (b' : (⟨1, ![128]⟩ : Shape).Idx → Ideal .f32)
    (i : (⟨2, ![M, 128]⟩ : Shape).Idx) (i' : (⟨2, ![M', 128]⟩ : Shape).Idx)
    (hv : ∀ k : Fin 128, v (ix2 (i 0) k) = v' (ix2 (i' 0) k)) (hn : ∀ k : Fin 128, nh (ix2 (i 0) k) = nh' (ix2 (i' 0) k))
    (hW : ∀ k : Fin 128, W (ix2 k (i 1)) = W' (ix2 k (i' 1))) (hb : b (ix1 (i 1)) = b' (ix1 (i' 1))) :
    dual v nh W b i = dual v' nh' W' b' i' := by
  unfold dual
  rw [funext hv, funext hn, funext hW, hb]

end Cert.Spec

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.LibTile.lean ====
/-
  Layout steps of a kernel that works on a tile of rows, read at an index written by coordinates.

  A tile [a, b, c] (a batch rows, b time steps, c lanes) is flattened to [a*b, c] for a matrix product and
  the product is unflattened again; one time step is cut out of the tile and its unit axis dropped; a run of
  lanes is cut out; a lane vector [c] is laid out as [1, 1, c] and repeated over every row and time step.
  Each lemma says which single entry of the operand the result holds at (r, s, k).
-/
import Idealize.ShloMosaic.Lib.Pipeline.Value
import Idealize.ShloMosaic.Lib.ValueIdx
import Idealize.ShloMosaic.Lib.ValueLayout

noncomputable section

namespace Cert.LibTile

open Idealize.ShloMosaic Idealize.ShloMosaic.ValueIdx

variable {α : Type}

/-- A tile [a, b, c] flattened to [n, c] holds, in row `r * b + s`, the tile's row (r, s). -/
theorem flatten_apply {a b c n : ℕ} (x : (⟨3, ![a, b, c]⟩ : Shape).Idx → α)
    (h : (⟨3, ![a, b, c]⟩ : Shape).ShapeCasts ⟨2, ![n, c]⟩) (r : Fin a) (s : Fin b) (k : Fin c) (p : Fin n)
    (hp : p.val = r.val * b + s.val) :
    shapeCast ⟨2, ![n, c]⟩ x h (ix2 p k) = x (ix3 r s k) :=
  shapeCast_apply x h _ _ (by
    rw [Shape.rowMajor_val_three, Shape.rowMajor_val_two]
    show (r.val * b + s.val) * c + k.val = p.val * c + k.val
    rw [hp])

/-- An [n, c] array unflattened to a tile [a, b, c] holds, at (r, s), the array's row `r * b + s`. -/
theorem unflatten_apply {a b c n : ℕ} (y : (⟨2, ![n, c]⟩ : Shape).Idx → α)
    (h : (⟨2, ![n, c]⟩ : Shape).ShapeCasts ⟨3, ![a, b, c]⟩) (r : Fin a) (s : Fin b) (k : Fin c) (p : Fin n)
    (hp : p.val = r.val * b + s.val) :
    shapeCast ⟨3, ![a, b, c]⟩ y h (ix3 r s k) = y (ix2 p k) :=
  shapeCast_apply y h _ _ (by
    rw [Shape.rowMajor_val_three, Shape.rowMajor_val_two]
    show p.val * c + k.val = (r.val * b + s.val) * c + k.val
    rw [hp])

/-- Time step `s` cut out of a tile ([a, 1, c] at offset (0, s, 0)) with its unit axis dropped holds, at
    (r, k), the tile's entry (r, s, k). -/
theorem step_apply {a b c : ℕ} (x : (⟨3, ![a, b, c]⟩ : Shape).Idx → α) (s : ℕ)
    (hs : (⟨3, ![a, b, c]⟩ : Shape).Slices ![0, s, 0] ⟨3, ![a, 1, c]⟩)
    (hc : (⟨3, ![a, 1, c]⟩ : Shape).ShapeCasts ⟨2, ![a, c]⟩) (r : Fin a) (k : Fin c) (s' : Fin b) (hs' : s'.val = s) :
    shapeCast ⟨2, ![a, c]⟩ (extractStridedSlice ⟨3, ![a, 1, c]⟩ ![0, s, 0] x hs) hc (ix2 r k) = x (ix3 r s' k) := by
  refine (shapeCast_apply _ hc (ix2 r k) (ix3 r (⟨0, Nat.one_pos⟩ : Fin 1) k) ?_).trans ?_
  · rw [Shape.rowMajor_val_three, Shape.rowMajor_val_two]
    show (r.val * 1 + 0) * c + k.val = r.val * c + k.val
    rw [Nat.mul_one, Nat.add_zero]
  · exact extractStridedSlice_apply _ x hs _ _ (fun ax => match ax with
      | ⟨0, _⟩ => by show r.val = 0 + r.val; omega
      | ⟨1, _⟩ => by show s'.val = s + 0; omega
      | ⟨2, _⟩ => by show k.val = 0 + k.val; omega)

/-- A run of lanes starting at `off` cut out of a tile holds, at (r, s, k), the tile's entry (r, s, off + k). -/
theorem lanes_apply {a b c c' : ℕ} (x : (⟨3, ![a, b, c]⟩ : Shape).Idx → α) (off : ℕ)
    (h : (⟨3, ![a, b, c]⟩ : Shape).Slices ![0, 0, off] ⟨3, ![a, b, c']⟩) (r : Fin a) (s : Fin b) (k : Fin c')
    (k' : Fin c) (hk : k'.val = off + k.val) :
    extractStridedSlice ⟨3, ![a, b, c']⟩ ![0, 0, off] x h (ix3 r s k) = x (ix3 r s k') :=
  extractStridedSlice_apply _ x h _ _ (fun ax => match ax with
    | ⟨0, _⟩ => by show r.val = 0 + r.val; omega
    | ⟨1, _⟩ => by show s.val = 0 + s.val; omega
    | ⟨2, _⟩ => by show k'.val = off + k.val; exact hk)

/-- A lane vector [c] laid out as [1, 1, c] and repeated over a tile [a, b, c] holds, at (r, s, k), the
    vector's entry k. -/
theorem lanevec_apply {a b c : ℕ} (v : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (r : Fin a) (s : Fin b) (k : Fin c) :
    broadcastTo ⟨3, ![a, b, c]⟩ (shapeCast ⟨3, ![1, 1, c]⟩ v h1) h2 (ix3 r s k) = v (ix1 k) := by
  refine (broadcastTo_apply _ h2 (ix3 r s k) (ix3 (⟨0, Nat.one_pos⟩ : Fin 1) (⟨0, Nat.one_pos⟩ : Fin 1) k) fun ax => ?_).trans ?_
  · match ax with
    | ⟨0, _⟩ => rfl
    | ⟨1, _⟩ => rfl
    | ⟨2, _⟩ =>
      show k.val = if c = 1 then 0 else k.val
      split
      · have := k.isLt; omega
      · rfl
  · exact shapeCast_apply v h1 _ _ (by
      rw [Shape.rowMajor_val_three, Shape.rowMajor_val_one]
      show k.val = (0 * 1 + 0) * c + k.val
      rw [Nat.zero_mul, Nat.zero_add])

/-- A vector [c] laid out as one row [1, c] and repeated over [a, c] holds, at (r, k), the vector's entry k. -/
theorem rowvec_apply {a c : ℕ} (v : (⟨1, ![c]⟩ : Shape).Idx → α)
    (h1 : (⟨1, ![c]⟩ : Shape).ShapeCasts ⟨2, ![1, c]⟩) (h2 : (⟨2, ![1, c]⟩ : Shape).Broadcasts ⟨2, ![a, c]⟩)
    (r : Fin a) (k : Fin c) :
    broadcastTo ⟨2, ![a, c]⟩ (shapeCast ⟨2, ![1, c]⟩ v h1) h2 (ix2 r k) = v (ix1 k) :=
  (broadcastTo_1b_ab_apply _ h2 r k).trans (shapeCast_a_1a_apply v h1 _ k)

end Cert.LibTile

end
-- ==== Proof.KIPay.lean ====
/-
  What one grid point of each kernel stores, read at an index on the exact extended reals: the payload of a row tile is
  the specification `Cert.Spec.dual` applied to the tile's own blocks of `v` and `nh` (and the whole `W` and `b`).
-/
import proofs.«155794_j12773232738836_1_alg».proof.Proof.Gen.KernelIdeal.Skeleton
import proofs.«155794_j12773232738836_1_alg».proof.Proof.Spec
import proofs.«155794_j12773232738836_1_alg».proof.Proof.LibMatmul
import proofs.«155794_j12773232738836_1_alg».proof.Proof.LibTile
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-! ## Region 0: tiles of 2000 rows -/

theorem d0_rank : (dot_S2000x128_S128x128_S2000x128_1_0_0_1_n_n).contr.rank = 1 := rfl
theorem d0_size : (dot_S2000x128_S128x128_S2000x128_1_0_0_1_n_n).contr.size ⟨0, by rw [d0_rank]; omega⟩ = 128 := rfl
theorem d0_l0 : ∀ (j : S2000x128.Idx) q, ((dot_S2000x128_S128x128_S2000x128_1_0_0_1_n_n).lhsIdx j q 0).val = (j 0).val := fun _ _ => rfl
theorem d0_l1 : ∀ (j : S2000x128.Idx) q, ((dot_S2000x128_S128x128_S2000x128_1_0_0_1_n_n).lhsIdx j q 1).val = (q ⟨0, by rw [d0_rank]; omega⟩).val := fun _ _ => rfl
theorem d0_r0 : ∀ (j : S2000x128.Idx) q, ((dot_S2000x128_S128x128_S2000x128_1_0_0_1_n_n).rhsIdx j q 0).val = (q ⟨0, by rw [d0_rank]; omega⟩).val := fun _ _ => rfl
theorem d0_r1 : ∀ (j : S2000x128.Idx) q, ((dot_S2000x128_S128x128_S2000x128_1_0_0_1_n_n).rhsIdx j q 1).val = (j 1).val := fun _ _ => rfl

/-- A product of a 2000-row tile with the weight matrix into a zero accumulator, at row `p` and column `q`: the sum over
    the 128 columns of the tile's row `p` against the matrix's column `q`. -/
theorem mm0_apply (a : FVec Ideal S2000x128 .bf16) (w : FVec Ideal S128x128 .bf16) (p : Fin 2000) (q : Fin 128) :
    matmul dot_S2000x128_S128x128_S2000x128_1_0_0_1_n_n none a w (constant S2000x128 .f32 0x00000000#32) (ix2 p q)
      = ∑ k : Fin 128, a (ix2 p k) * w (ix2 k q) :=
  Cert.LibMatmul.matmul_zero_ix2 dot_S2000x128_S128x128_S2000x128_1_0_0_1_n_n none d0_rank d0_size d0_l0 d0_l1 d0_r0 d0_r1 a w (ix2 p q)

/-- The bias laid out as one row and repeated over the tile's rows holds, at (p, q), the bias entry q. -/
theorem bias0_apply (x3 : Vec Ideal S128 .f32) (p : Fin 2000) (q : Fin 128) :
    broadcastTo S2000x128 (shapeCast S1x128 x3 shapeCasts_S128_S1x128) broadcasts_S1x128_S2000x128 (ix2 p q) = x3 (ix1 q) :=
  Cert.LibTile.rowvec_apply x3 shapeCasts_S128_S1x128 broadcasts_S1x128_S2000x128 p q

/-- The stored payload of a tile IS the specification on that tile: the two matrix products into zero accumulators are
    the two sums over the 128 columns, a change of float format is the identity, the bias laid out as one row and repeated
    over the rows is its entry at the column, and the rectifier is spelt as in the specification. -/
theorem pay0_apply (x0 x1 : Vec Ideal S2000x128 .f32) (x2 : Vec Ideal S128x128 .f32) (x3 : Vec Ideal S128 .f32) (j : S2000x128.Idx) :
    k0_pay1 x0 x1 x2 x3 j = Cert.Spec.dual (M := 2000) x0 x1 x2 x3 j := by
  obtain ⟨p, q, rfl⟩ : ∃ (p : Fin 2000) (q : Fin 128), j = ix2 p q := ⟨j 0, j 1, eq_ix2 j⟩
  unfold k0_pay1
  simp only [addf_apply, select_apply, cmpf_apply, mulf_apply, broadcast_apply]
  rw [shapeCast_self, mm0_apply, mm0_apply, bias0_apply]
  rfl

/-! ## Region 1: tiles of 1000 rows -/

theorem d1_rank : (dot_S1000x128_S128x128_S1000x128_1_0_0_1_n_n).contr.rank = 1 := rfl
theorem d1_size : (dot_S1000x128_S128x128_S1000x128_1_0_0_1_n_n).contr.size ⟨0, by rw [d1_rank]; omega⟩ = 128 := rfl
theorem d1_l0 : ∀ (j : S1000x128.Idx) q, ((dot_S1000x128_S128x128_S1000x128_1_0_0_1_n_n).lhsIdx j q 0).val = (j 0).val := fun _ _ => rfl
theorem d1_l1 : ∀ (j : S1000x128.Idx) q, ((dot_S1000x128_S128x128_S1000x128_1_0_0_1_n_n).lhsIdx j q 1).val = (q ⟨0, by rw [d1_rank]; omega⟩).val := fun _ _ => rfl
theorem d1_r0 : ∀ (j : S1000x128.Idx) q, ((dot_S1000x128_S128x128_S1000x128_1_0_0_1_n_n).rhsIdx j q 0).val = (q ⟨0, by rw [d1_rank]; omega⟩).val := fun _ _ => rfl
theorem d1_r1 : ∀ (j : S1000x128.Idx) q, ((dot_S1000x128_S128x128_S1000x128_1_0_0_1_n_n).rhsIdx j q 1).val = (j 1).val := fun _ _ => rfl

/-- A product of a 1000-row tile with the weight matrix into a zero accumulator, at row `p` and column `q`: the sum over
    the 128 columns of the tile's row `p` against the matrix's column `q`. -/
theorem mm1_apply (a : FVec Ideal S1000x128 .bf16) (w : FVec Ideal S128x128 .bf16) (p : Fin 1000) (q : Fin 128) :
    matmul dot_S1000x128_S128x128_S1000x128_1_0_0_1_n_n none a w (constant S1000x128 .f32 0x00000000#32) (ix2 p q)
      = ∑ k : Fin 128, a (ix2 p k) * w (ix2 k q) :=
  Cert.LibMatmul.matmul_zero_ix2 dot_S1000x128_S128x128_S1000x128_1_0_0_1_n_n none d1_rank d1_size d1_l0 d1_l1 d1_r0 d1_r1 a w (ix2 p q)

/-- The bias laid out as one row and repeated over the tile's rows holds, at (p, q), the bias entry q. -/
theorem bias1_apply (x3 : Vec Ideal S128 .f32) (p : Fin 1000) (q : Fin 128) :
    broadcastTo S1000x128 (shapeCast S1x128 x3 shapeCasts_S128_S1x128) broadcasts_S1x128_S1000x128 (ix2 p q) = x3 (ix1 q) :=
  Cert.LibTile.rowvec_apply x3 shapeCasts_S128_S1x128 broadcasts_S1x128_S1000x128 p q

/-- The stored payload of a tile IS the specification on that tile: the two matrix products into zero accumulators are
    the two sums over the 128 columns, a change of float format is the identity, the bias laid out as one row and repeated
    over the rows is its entry at the column, and the rectifier is spelt as in the specification. -/
theorem pay1_apply (x0 x1 : Vec Ideal S1000x128 .f32) (x2 : Vec Ideal S128x128 .f32) (x3 : Vec Ideal S128 .f32) (j : S1000x128.Idx) :
    k1_pay1 x0 x1 x2 x3 j = Cert.Spec.dual (M := 1000) x0 x1 x2 x3 j := by
  obtain ⟨p, q, rfl⟩ : ∃ (p : Fin 1000) (q : Fin 128), j = ix2 p q := ⟨j 0, j 1, eq_ix2 j⟩
  unfold k1_pay1
  simp only [addf_apply, select_apply, cmpf_apply, mulf_apply, broadcast_apply]
  rw [shapeCast_self, mm1_apply, mm1_apply, bias1_apply]
  rfl
end Cert.KernelIdeal.Hand

end
-- ==== Proof.KIValue.lean ====
/-
  From tiles to arrays, on the exact extended reals: each region's output array, after the region, is the specification
  `Cert.Spec.dual` of the arrays the region found — every grid point writes back its row tile of that function (the
  payload read at an index, the tile's rows located in the arrays by the index maps), and the row tiles cover the array.
-/
import proofs.«155794_j12773232738836_1_alg».proof.Proof.KIBody
import proofs.«155794_j12773232738836_1_alg».proof.Proof.KIPay

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-! ## Region 0: 25 tiles of 2000 rows of the 50000-row node set -/

/-- The printed index maps over the grid: the two row-tiled inputs and the output are at row tile `t`, column tile 0;
    the weight matrix and the bias are at their only block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- WHAT POINT `t` WRITES BACK is block `t` of the specification of the arrays as the region finds them: the payload is
    the specification on the tile's own blocks, and the tile's rows are rows `2000·t …` of the arrays. -/
theorem flushed0_eq (c : Dev nD) (t : Fin cfg0.N) :
    (dat0 V c).flushed 4 t = ((cfg0.win 4).blk t).view.read (Elt Ideal)
      (Cert.Spec.dual (M := 50000) (V c main_arg0) (V c main_v12) (V c main_arg4) (V c main_arg5)) := by
  show (cfg0.win 4).cut (grid0.coords t) ((dat0 V c).after 4 t) = _
  rw [after0_4]
  unfold out0_4
  rw [View.canon_unit_zero hz]
  simp only [View.ld_unit_zero (S := S2000x128) hz, View.ld_unit_zero (S := S128x128) hz, View.ld_unit_zero (S := S128) hz1]
  obtain ⟨e00, e01, e10, e11, e20, e21, e30, e40, e41⟩ := idx_facts0 t
  funext j
  refine (pay0_apply (iblk0 V c 0 t) (iblk0 V c 1 t) (iblk0 V c 2 t) (iblk0 V c 3 t) j).trans ?_
  show _ = Cert.Spec.dual (M := 50000) (V c main_arg0) (V c main_v12) (V c main_arg4) (V c main_arg5) (((cfg0.win 4).blk t).view.emb j)
  have hj0 : (j 0).val < 2000 := (j 0).isLt
  have hj1 : (j 1).val < 128 := (j 1).isLt
  refine Cert.Spec.dual_congr _ _ _ _ _ _ _ _ j (((cfg0.win 4).blk t).view.emb j) (fun k => ?_) (fun k => ?_) (fun k => ?_) ?_
  · show V c main_arg0 (((cfg0.win 0).blk t).view.emb (ix2 (j 0) k)) = _
    have h : ((cfg0.win 0).blk t).view.emb (ix2 (j 0) k) = ix2 ((((cfg0.win 4).blk t).view.emb j) 0) k := by
      funext a; apply Fin.ext
      match a with
      | ⟨0, _⟩ => show win0_0.index t (0 : Fin 2) * 2000 + 1 * (j 0).val = win0_4.index t (0 : Fin 2) * 2000 + 1 * (j 0).val; omega
      | ⟨1, _⟩ => show win0_0.index t (1 : Fin 2) * 128 + 1 * k.val = k.val; omega
    rw [h]; rfl
  · show V c main_v12 (((cfg0.win 1).blk t).view.emb (ix2 (j 0) k)) = _
    have h : ((cfg0.win 1).blk t).view.emb (ix2 (j 0) k) = ix2 ((((cfg0.win 4).blk t).view.emb j) 0) k := by
      funext a; apply Fin.ext
      match a with
      | ⟨0, _⟩ => show win0_1.index t (0 : Fin 2) * 2000 + 1 * (j 0).val = win0_4.index t (0 : Fin 2) * 2000 + 1 * (j 0).val; omega
      | ⟨1, _⟩ => show win0_1.index t (1 : Fin 2) * 128 + 1 * k.val = k.val; omega
    rw [h]; rfl
  · show V c main_arg4 (((cfg0.win 2).blk t).view.emb (ix2 k (j 1))) = _
    have h : ((cfg0.win 2).blk t).view.emb (ix2 k (j 1)) = ix2 k ((((cfg0.win 4).blk t).view.emb j) 1) := by
      funext a; apply Fin.ext
      match a with
      | ⟨0, _⟩ => show win0_2.index t (0 : Fin 2) * 128 + 1 * k.val = k.val; omega
      | ⟨1, _⟩ => show win0_2.index t (1 : Fin 2) * 128 + 1 * (j 1).val = win0_4.index t (1 : Fin 2) * 128 + 1 * (j 1).val; omega
    rw [h]; rfl
  · show V c main_arg5 (((cfg0.win 3).blk t).view.emb (ix1 (j 1))) = _
    have h : ((cfg0.win 3).blk t).view.emb (ix1 (j 1)) = ix1 ((((cfg0.win 4).blk t).view.emb j) 1) := by
      funext a; apply Fin.ext
      match a with
      | ⟨0, _⟩ => show win0_3.index t (0 : Fin 1) * 128 + 1 * (j 1).val = win0_4.index t (1 : Fin 2) * 128 + 1 * (j 1).val; omega
    rw [h]; rfl

/-- An index of the output array is in point `t`'s block iff each coordinate is in the block's range on its axis. -/
theorem mem_blk0 (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v26).slice (win0_4.rect t)).set ↔ _
  rw [View.set_slice_whole, Rect.mem_set_unit]
  exact Iff.rfl

/-- The 25 row tiles cover the array: row `r` is in tile `r / 2000`. -/
theorem cover0 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  let t : Fin cfg0.N := ⟨(i 0).val / 2000, by rw [show cfg0.N = 25 from N_0]; omega⟩
  obtain ⟨-, -, -, -, -, -, -, e40, e41⟩ := idx_facts0 t
  have ht : t.val = (i 0).val / 2000 := rfl
  refine ⟨t, flush0_4 t, ?_⟩
  rw [mem_blk0]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- THE OUTPUT ARRAY after the region: the specification of the arrays as the region finds them. -/
theorem final0 (c : Dev nD) : (dat0 V c).arrAt 4 cfg0.N
    = Cert.Spec.dual (M := 50000) (V c main_arg0) (V c main_v12) (V c main_arg4) (V c main_arg5) :=
  (dat0 V c).arrAt_eq_of_cover 4 _ (fun t _ => flushed0_eq V c t) (cover0)

/-! ## Region 1: 5 tiles of 1000 rows of the 5000-row node set -/

/-- The printed index maps over the grid: the two row-tiled inputs and the output are at row tile `t`, column tile 0;
    the weight matrix and the bias are at their only block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- WHAT POINT `t` WRITES BACK is block `t` of the specification of the arrays as the region finds them: the payload is
    the specification on the tile's own blocks, and the tile's rows are rows `1000·t …` of the arrays. -/
theorem flushed1_eq (c : Dev nD) (t : Fin cfg1.N) :
    (dat1 V c).flushed 4 t = ((cfg1.win 4).blk t).view.read (Elt Ideal)
      (Cert.Spec.dual (M := 5000) (V c main_arg1) (V c main_v25) (V c main_arg4) (V c main_arg5)) := by
  show (cfg1.win 4).cut (grid1.coords t) ((dat1 V c).after 4 t) = _
  rw [after1_4]
  unfold out1_4
  rw [View.canon_unit_zero hz]
  simp only [View.ld_unit_zero (S := S1000x128) hz, View.ld_unit_zero (S := S128x128) hz, View.ld_unit_zero (S := S128) hz1]
  obtain ⟨e00, e01, e10, e11, e20, e21, e30, e40, e41⟩ := idx_facts1 t
  funext j
  refine (pay1_apply (iblk1 V c 0 t) (iblk1 V c 1 t) (iblk1 V c 2 t) (iblk1 V c 3 t) j).trans ?_
  show _ = Cert.Spec.dual (M := 5000) (V c main_arg1) (V c main_v25) (V c main_arg4) (V c main_arg5) (((cfg1.win 4).blk t).view.emb j)
  have hj0 : (j 0).val < 1000 := (j 0).isLt
  have hj1 : (j 1).val < 128 := (j 1).isLt
  refine Cert.Spec.dual_congr _ _ _ _ _ _ _ _ j (((cfg1.win 4).blk t).view.emb j) (fun k => ?_) (fun k => ?_) (fun k => ?_) ?_
  · show V c main_arg1 (((cfg1.win 0).blk t).view.emb (ix2 (j 0) k)) = _
    have h : ((cfg1.win 0).blk t).view.emb (ix2 (j 0) k) = ix2 ((((cfg1.win 4).blk t).view.emb j) 0) k := by
      funext a; apply Fin.ext
      match a with
      | ⟨0, _⟩ => show win1_0.index t (0 : Fin 2) * 1000 + 1 * (j 0).val = win1_4.index t (0 : Fin 2) * 1000 + 1 * (j 0).val; omega
      | ⟨1, _⟩ => show win1_0.index t (1 : Fin 2) * 128 + 1 * k.val = k.val; omega
    rw [h]; rfl
  · show V c main_v25 (((cfg1.win 1).blk t).view.emb (ix2 (j 0) k)) = _
    have h : ((cfg1.win 1).blk t).view.emb (ix2 (j 0) k) = ix2 ((((cfg1.win 4).blk t).view.emb j) 0) k := by
      funext a; apply Fin.ext
      match a with
      | ⟨0, _⟩ => show win1_1.index t (0 : Fin 2) * 1000 + 1 * (j 0).val = win1_4.index t (0 : Fin 2) * 1000 + 1 * (j 0).val; omega
      | ⟨1, _⟩ => show win1_1.index t (1 : Fin 2) * 128 + 1 * k.val = k.val; omega
    rw [h]; rfl
  · show V c main_arg4 (((cfg1.win 2).blk t).view.emb (ix2 k (j 1))) = _
    have h : ((cfg1.win 2).blk t).view.emb (ix2 k (j 1)) = ix2 k ((((cfg1.win 4).blk t).view.emb j) 1) := by
      funext a; apply Fin.ext
      match a with
      | ⟨0, _⟩ => show win1_2.index t (0 : Fin 2) * 128 + 1 * k.val = k.val; omega
      | ⟨1, _⟩ => show win1_2.index t (1 : Fin 2) * 128 + 1 * (j 1).val = win1_4.index t (1 : Fin 2) * 128 + 1 * (j 1).val; omega
    rw [h]; rfl
  · show V c main_arg5 (((cfg1.win 3).blk t).view.emb (ix1 (j 1))) = _
    have h : ((cfg1.win 3).blk t).view.emb (ix1 (j 1)) = ix1 ((((cfg1.win 4).blk t).view.emb j) 1) := by
      funext a; apply Fin.ext
      match a with
      | ⟨0, _⟩ => show win1_3.index t (0 : Fin 1) * 128 + 1 * (j 1).val = win1_4.index t (1 : Fin 2) * 128 + 1 * (j 1).val; omega
    rw [h]; rfl

/-- An index of the output array is in point `t`'s block iff each coordinate is in the block's range on its axis. -/
theorem mem_blk1 (t : Fin cfg1.N) (i : S5000x128.Idx) :
    i ∈ ((cfg1.win 4).blk t).view.set ↔ ∀ a : Fin 2, win1_4.index t a * S1000x128.size a ≤ (i a).val ∧ (i a).val < win1_4.index t a * S1000x128.size a + S1000x128.size a := by
  show i ∈ ((View.whole main_v27).slice (win1_4.rect t)).set ↔ _
  rw [View.set_slice_whole, Rect.mem_set_unit]
  exact Iff.rfl

/-- The 5 row tiles cover the array: row `r` is in tile `r / 1000`. -/
theorem cover1 (i : S5000x128.Idx) : ∃ t : Fin cfg1.N, (cfg1.win 4).flush t = true ∧ i ∈ ((cfg1.win 4).blk t).view.set := by
  have hi0 : (i 0).val < 5000 := (i 0).isLt
  have hi1 : (i 1).val < 128 := (i 1).isLt
  let t : Fin cfg1.N := ⟨(i 0).val / 1000, by rw [show cfg1.N = 5 from N_1]; omega⟩
  obtain ⟨-, -, -, -, -, -, -, e40, e41⟩ := idx_facts1 t
  have ht : t.val = (i 0).val / 1000 := rfl
  refine ⟨t, flush1_4 t, ?_⟩
  rw [mem_blk1]
  intro a
  match a with
  | ⟨0, _⟩ => show win1_4.index t (0 : Fin 2) * 1000 ≤ (i 0).val ∧ (i 0).val < win1_4.index t (0 : Fin 2) * 1000 + 1000; omega
  | ⟨1, _⟩ => show win1_4.index t (1 : Fin 2) * 128 ≤ (i 1).val ∧ (i 1).val < win1_4.index t (1 : Fin 2) * 128 + 128; omega

/-- THE OUTPUT ARRAY after the region: the specification of the arrays as the region finds them. -/
theorem final1 (c : Dev nD) : (dat1 V c).arrAt 4 cfg1.N
    = Cert.Spec.dual (M := 5000) (V c main_arg1) (V c main_v25) (V c main_arg4) (V c main_arg5) :=
  (dat1 V c).arrAt_eq_of_cover 4 _ (fun t _ => flushed1_eq V c t) (cover1)

end Cert.KernelIdeal.Hand

end
-- ==== Proof.KIRun.lean ====
/-
  `KernelIdeal`'s @main from launch to return, as four segments: the host operations that gather, scale and segment-sum the
  messages; the row-tiled kernel over the 50000 grid nodes; the same kernel over the 5000 category nodes; the host
  operations that gather 3 × 1024 rows of the two results and stack them. The contents of every unscoped buffer are
  followed through the segments as a fold from the launch memory (`W0 … W4`): a host stretch applies its operations,
  a region replaces its five arrays by what its write-backs leave (inputs unchanged, the output array the tiles the
  points wrote). The run says that every weakly fair execution terminates with every unscoped buffer at `W4`; the frame
  (each argument array as launched) and the result buffer's contents are read off it. For any float instance `F`.
-/
import proofs.«155794_j12773232738836_1_alg».proof.Proof.KIBody

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the host stretches write -/

/-- The buffers `hostOps0`'s operations write: each operation writes its one result buffer. -/
abbrev hostOps0_W : List (Ref sig .tc) := [main_c, main_v0, main_v1, main_c_0, main_v2, main_v3, main_v4, main_v5, main_v6, main_v7, main_v8, main_v9, main_cst, main_v10, main_v11, main_v12, main_c_1, main_v13, main_v14, main_c_2, main_v15, main_v16, main_v17, main_v18, main_v19, main_v20, main_v21, main_v22, main_cst_3, main_v23, main_v24, main_v25]
theorem hostOps0_writes : (hostOps0 : List (HloOp τ sig (Elt F))).Forall fun op => op.writes ⊆ (hostOps0_W.map (Proc.devRef (τ := τ) .tc)).toFinset := by
  simp only [List.Forall]
  repeat' apply And.intro
  all_goals
    simp only [StableHlo.nullary_writes, StableHlo.unary_writes, StableHlo.binary_writes, StableHlo.ternary_writes, StableHlo.nary_writes,
      Finset.singleton_subset_iff, List.mem_toFinset]
    exact List.mem_map_of_mem (by decide)
/-- No operation of `hostOps0` allocates a buffer. -/
theorem hostOps0_fresh : (hostOps0 : List (HloOp τ sig (Elt F))).Forall fun op => op.fresh = ∅ := by
  simp only [List.Forall]; repeat' constructor

/-- The buffers `hostOps2`'s operations write: each operation writes its one result buffer. -/
abbrev hostOps2_W : List (Ref sig .tc) := [main_c_4, main_v28, main_v29, main_c_5, main_v30, main_v31, main_v32, main_v33, main_v34, main_c_6, main_v35, main_v36, main_c_7, main_v37, main_v38, main_v39, main_v40, main_v41, main_c_8, main_v42, main_v43, main_c_9, main_v44, main_v45, main_v46, main_v47, main_v48, main_v49, main_v50, main_v51, main_v52]
theorem hostOps2_writes : (hostOps2 : List (HloOp τ sig (Elt F))).Forall fun op => op.writes ⊆ (hostOps2_W.map (Proc.devRef (τ := τ) .tc)).toFinset := by
  simp only [List.Forall]
  repeat' apply And.intro
  all_goals
    simp only [StableHlo.nullary_writes, StableHlo.unary_writes, StableHlo.binary_writes, StableHlo.ternary_writes, StableHlo.nary_writes,
      Finset.singleton_subset_iff, List.mem_toFinset]
    exact List.mem_map_of_mem (by decide)
/-- No operation of `hostOps2` allocates a buffer. -/
theorem hostOps2_fresh : (hostOps2 : List (HloOp τ sig (Elt F))).Forall fun op => op.fresh = ∅ := by
  simp only [List.Forall]; repeat' constructor

/-! ## The buffer contents at each segment boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit (region 1's entry: no host operation stands between them): its arrays at what the pipeline
    leaves — the inputs as entered, the output the folded write-backs — and every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit, likewise. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last host stretch: what the program returns with. -/
abbrev W4 : Dev nD → Valuation τ sig (Elt F) := fun c => StableHlo.after hostOps2 (W3 m c)

/-! ## The arguments end as launched

No host operation writes an argument, and a region reads one through an input window (whose array its write-backs
leave as entered) or not at all, so the fold at an argument's buffer walks back to the launch memory. -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := (W3_arr m c 0).trans (((dat1 (V2 m) c).arrAt_in 0 rfl _).trans (A_eq1 (V2 m) c 0))
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (by decide)
    _ = W2 m c (Proc.devRef .tc main_arg4) := (W3_arr m c 2).trans (((dat1 (V2 m) c).arrAt_in 2 rfl _).trans (A_eq1 (V2 m) c 2))
    _ = W1 m c (Proc.devRef .tc main_arg4) := (W2_arr m c 2).trans (((dat0 (V1 m) c).arrAt_in 2 rfl _).trans (A_eq0 (V1 m) c 2))
    _ = W0 m c (Proc.devRef .tc main_arg4) := StableHlo.after_of_writes_sub hostOps0 _ hostOps0_writes (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (by decide)
    _ = W2 m c (Proc.devRef .tc main_arg5) := (W3_arr m c 3).trans (((dat1 (V2 m) c).arrAt_in 3 rfl _).trans (A_eq1 (V2 m) c 3))
    _ = W1 m c (Proc.devRef .tc main_arg5) := (W2_arr m c 3).trans (((dat0 (V1 m) c).arrAt_in 3 rfl _).trans (A_eq0 (V1 m) c 3))
    _ = W0 m c (Proc.devRef .tc main_arg5) := StableHlo.after_of_writes_sub hostOps0 _ hostOps0_writes (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_writes_sub hostOps2 _ hostOps2_writes (by decide)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem W4_main_arg7 (c : Dev nD) : W4 m c (Proc.devRef .tc main_arg7) = m ((c : Thread nD τ).loc main_arg7) :=
  calc W4 m c (Proc.devRef .tc main_arg7)
    _ = W3 m c (Proc.devRef .tc main_arg7) := StableHlo.after_of_writes_sub hostOps2 _ hostOps2_writes (by decide)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl
theorem W4_main_arg8 (c : Dev nD) : W4 m c (Proc.devRef .tc main_arg8) = m ((c : Thread nD τ).loc main_arg8) :=
  calc W4 m c (Proc.devRef .tc main_arg8)
    _ = W3 m c (Proc.devRef .tc main_arg8) := StableHlo.after_of_writes_sub hostOps2 _ hostOps2_writes (by decide)
    _ = W2 m c (Proc.devRef .tc main_arg8) := W3_of_ne m c main_arg8 (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl
theorem W4_main_arg9 (c : Dev nD) : W4 m c (Proc.devRef .tc main_arg9) = m ((c : Thread nD τ).loc main_arg9) :=
  calc W4 m c (Proc.devRef .tc main_arg9)
    _ = W3 m c (Proc.devRef .tc main_arg9) := StableHlo.after_of_writes_sub hostOps2 _ hostOps2_writes (by decide)
    _ = W2 m c (Proc.devRef .tc main_arg9) := W3_of_ne m c main_arg9 (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl
theorem W4_main_arg10 (c : Dev nD) : W4 m c (Proc.devRef .tc main_arg10) = m ((c : Thread nD τ).loc main_arg10) :=
  calc W4 m c (Proc.devRef .tc main_arg10)
    _ = W3 m c (Proc.devRef .tc main_arg10) := StableHlo.after_of_writes_sub hostOps2 _ hostOps2_writes (by decide)
    _ = W2 m c (Proc.devRef .tc main_arg10) := W3_of_ne m c main_arg10 (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl
theorem W4_main_arg11 (c : Dev nD) : W4 m c (Proc.devRef .tc main_arg11) = m ((c : Thread nD τ).loc main_arg11) :=
  calc W4 m c (Proc.devRef .tc main_arg11)
    _ = W3 m c (Proc.devRef .tc main_arg11) := StableHlo.after_of_writes_sub hostOps2 _ hostOps2_writes (by decide)
    _ = W2 m c (Proc.devRef .tc main_arg11) := W3_of_ne m c main_arg11 (by decide)
    _ = W1 m c (Proc.devRef .tc main_arg11) := W2_of_ne m c main_arg11 (by decide)
    _ = W0 m c (Proc.devRef .tc main_arg11) := StableHlo.after_of_writes_sub hostOps0 _ hostOps0_writes (by decide)
    _ = m ((c : Thread nD τ).loc main_arg11) := rfl
theorem W4_main_arg12 (c : Dev nD) : W4 m c (Proc.devRef .tc main_arg12) = m ((c : Thread nD τ).loc main_arg12) :=
  calc W4 m c (Proc.devRef .tc main_arg12)
    _ = W3 m c (Proc.devRef .tc main_arg12) := StableHlo.after_of_writes_sub hostOps2 _ hostOps2_writes (by decide)
    _ = W2 m c (Proc.devRef .tc main_arg12) := W3_of_ne m c main_arg12 (by decide)
    _ = W1 m c (Proc.devRef .tc main_arg12) := W2_of_ne m c main_arg12 (by decide)
    _ = W0 m c (Proc.devRef .tc main_arg12) := StableHlo.after_of_writes_sub hostOps0 _ hostOps0_writes (by decide)
    _ = m ((c : Thread nD τ).loc main_arg12) := rfl

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at `W4`, the generator register at some state. -/
abbrev Tₙ (c : Dev nD) : sProp 𝕄 := iprop(StableHlo.held (c : Thread nD τ) (Pipeline.ucRefs τ sig) (W4 m c) ∗ ∃ r, prngReg c r)

/-! ## The regions as segments -/

-- the pipeline's configuration is reached through a definition, which unification must be allowed to unfold here
set_option backward.isDefEq.respectTransparency.types false in
/-- Region 0 over the thread state: entered with every unscoped buffer at `W1`, left with them at `W2`. Its five
    arrays are split out of the unscoped buffers on entry and put back at what the write-backs leave on exit; the
    generator register goes into the pipeline's invariant and comes back; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pipeline's configuration is reached through a definition, which unification must be allowed to unfold here
set_option backward.isDefEq.respectTransparency.types false in
/-- Region 1 over the thread state: entered with every unscoped buffer at `W2`, left with them at `W3`. Its five
    arrays are split out of the unscoped buffers on entry and put back at what the write-backs leave on exit; the
    generator register goes into the pipeline's invariant and comes back; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's four segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
/-- @main is the run of the segments. -/
theorem main_run (c : Dev nD) : main (F := F) c = Pipeline.Seg.run (segs m) := (main_chain c).trans (by chain_rfl)

set_option backward.isDefEq.respectTransparency.types false in
/-- THE RUN: from any memory with zero counters, every weakly fair execution of @main on the TensorCores terminates,
    nothing faulting, and the final memory holds every unscoped buffer at the fold's last contents `W4`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The run with the result buffer named and the arguments read back: the result `main_v52` ends at the fold's last
    contents there, each argument array as launched. -/
theorem run_res (ρ : Dev nD → PrngReg) : θ_run defs (onTc (τ := τ) (main (F := F))) ⟨m, fun _ => 0, ρ⟩ (fun r => ∀ c : Dev nD,
      r.2.mem ((c.tc : Thread nD τ).loc main_v52) = W4 m c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v52 (by decide)),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c),
     (h c _ (mem_uc main_arg8 (by decide))).trans (W4_main_arg8 m c),
     (h c _ (mem_uc main_arg9 (by decide))).trans (W4_main_arg9 m c),
     (h c _ (mem_uc main_arg10 (by decide))).trans (W4_main_arg10 m c),
     (h c _ (mem_uc main_arg11 (by decide))).trans (W4_main_arg11 m c),
     (h c _ (mem_uc main_arg12 (by decide))).trans (W4_main_arg12 m c)⟩) (run_all m ρ)

/-- THE FRAME: every weakly fair execution terminates, nothing faulting, each argument array ending as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => (h c).2) (run_res m ρ)

end Cert.KernelIdeal.Hand

end
-- ==== Proof.KITrace.lean ====
/-
  The buffers the regions and the last host stretch read, traced back through the fold of `KIRun`: an argument array is
  still its launch contents wherever it is read; the two aggregated-message arrays are what the first host stretch
  computed; the two arrays the last stretch gathers rows from are what the two regions' write-backs left.
-/
import proofs.«155794_j12773232738836_1_alg».proof.Proof.KIRun

set_option maxRecDepth 16384

noncomputable section

namespace Cert.KernelIdeal.Hand

open Cert.KernelIdeal Cert.KernelIdeal.Gen Cert.KernelIdeal.GenP
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-! ## At region 0's entry (after the first host stretch) -/
theorem V1_main_arg0 (c : Dev nD) : V1 m c main_arg0 = m ((c : Thread nD τ).loc main_arg0) :=
  StableHlo.after_of_writes_sub hostOps0 _ hostOps0_writes (by decide)
theorem V1_main_arg4 (c : Dev nD) : V1 m c main_arg4 = m ((c : Thread nD τ).loc main_arg4) :=
  StableHlo.after_of_writes_sub hostOps0 _ hostOps0_writes (by decide)
theorem V1_main_arg5 (c : Dev nD) : V1 m c main_arg5 = m ((c : Thread nD τ).loc main_arg5) :=
  StableHlo.after_of_writes_sub hostOps0 _ hostOps0_writes (by decide)

/-! ## At region 1's entry (after region 0) -/
theorem V2_main_arg1 (c : Dev nD) : V2 m c main_arg1 = m ((c : Thread nD τ).loc main_arg1) :=
  (W2_of_ne m c main_arg1 (by decide)).trans (StableHlo.after_of_writes_sub hostOps0 _ hostOps0_writes (by decide))
theorem V2_main_arg4 (c : Dev nD) : V2 m c main_arg4 = m ((c : Thread nD τ).loc main_arg4) :=
  ((W2_arr m c 2).trans (((dat0 (V1 m) c).arrAt_in 2 rfl _).trans (A_eq0 (V1 m) c 2))).trans (V1_main_arg4 m c)
theorem V2_main_arg5 (c : Dev nD) : V2 m c main_arg5 = m ((c : Thread nD τ).loc main_arg5) :=
  ((W2_arr m c 3).trans (((dat0 (V1 m) c).arrAt_in 3 rfl _).trans (A_eq0 (V1 m) c 3))).trans (V1_main_arg5 m c)
/-- Region 0 does not touch the category nodes' aggregated messages. -/
theorem V2_main_v25 (c : Dev nD) : V2 m c main_v25 = V1 m c main_v25 := W2_of_ne m c main_v25 (by decide)

/-! ## At the last host stretch's entry (after region 1) -/
/-- The grid nodes' result is what region 0's write-backs left (region 1 does not touch it). -/
theorem W3_main_v26 (c : Dev nD) : W3 m c (Proc.devRef .tc main_v26) = (dat0 (V1 m) c).arrAt 4 cfg0.N :=
  (W3_of_ne m c main_v26 (by decide)).trans (W2_arr m c 4)
/-- The category nodes' result is what region 1's write-backs left. -/
theorem W3_main_v27 (c : Dev nD) : W3 m c (Proc.devRef .tc main_v27) = (dat1 (V2 m) c).arrAt 4 cfg1.N := W3_arr m c 4
theorem W3_main_arg10 (c : Dev nD) : W3 m c (Proc.devRef .tc main_arg10) = m ((c : Thread nD τ).loc main_arg10) :=
  (W3_of_ne m c main_arg10 (by decide)).trans ((W2_of_ne m c main_arg10 (by decide)).trans
    (StableHlo.after_of_writes_sub hostOps0 _ hostOps0_writes (by decide)))
theorem W3_main_arg11 (c : Dev nD) : W3 m c (Proc.devRef .tc main_arg11) = m ((c : Thread nD τ).loc main_arg11) :=
  (W3_of_ne m c main_arg11 (by decide)).trans ((W2_of_ne m c main_arg11 (by decide)).trans
    (StableHlo.after_of_writes_sub hostOps0 _ hostOps0_writes (by decide)))
theorem W3_main_arg12 (c : Dev nD) : W3 m c (Proc.devRef .tc main_arg12) = m ((c : Thread nD τ).loc main_arg12) :=
  (W3_of_ne m c main_arg12 (by decide)).trans ((W2_of_ne m c main_arg12 (by decide)).trans
    (StableHlo.after_of_writes_sub hostOps0 _ hostOps0_writes (by decide)))

end Cert.KernelIdeal.Hand

end
-- ==== Proof.RefRun.lean ====
/-
  The run of the reference program: @main as the list of its 113 host operations (the four calls of the leaky
  rectifier replaced by the callee's seven operations over the call's buffers), read in six consecutive stretches.
  Each stretch's result buffer is stated as a named term of the buffers it reads, every buffer a stretch does not
  write is unchanged through it, and the whole run is the composition: the result buffer ends at the composed term
  of the thirteen arguments' launch contents, and the arguments end unchanged.
-/
import proofs.«155794_j12773232738836_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The five named results, each a term of the buffers its stretch reads -/

/-- The 50000-row neighbourhood sum: rows of `a1` gathered at the wrapped indices `a6`, each scaled by its weight
    in `a2`, added into a zero table at the rows `a7`. -/
def nhGrid (a1 : (⟨S5000x128, .f32⟩ : BufTy).Contents (Elt F)) (a2 : (⟨S600000, .f32⟩ : BufTy).Contents (Elt F))
    (a6 a7 : (⟨S600000, .i32⟩ : BufTy).Contents (Elt F)) : (⟨S50000x128, .f32⟩ : BufTy).Contents (Elt F) :=
  (Host.scatterAdd scatter_S50000x128_S600000x1_S600000x128_1_0_0_1
    (broadcastInDim S50000x128 ![] bcast_S_S50000x128 (constant S_ .f32 0x00000000#32))
    (broadcastInDim S600000x1 ![0] bcast_S600000_S600000x1_0 a7)
    (mulf
      (Host.gather gather_S5000x128_S600000x1_S600000x128_1_0_n_n_0_1_1128
        a1
        (broadcastInDim S600000x1 ![0] bcast_S600000_S600000x1_0
          (select
            (cmpi .slt a6 (broadcastInDim S600000 ![] bcast_S_S600000 (constantI S_ 32 0#32)))
            (addi a6 (broadcastInDim S600000 ![] bcast_S_S600000 (constantI S_ 32 5000#32)))
            a6)))
      (broadcastInDim S600000x128 ![0, 1] bcast_S600000x1_S600000x128_0_1
        (broadcastInDim S600000x1 ![0] bcast_S600000_S600000x1_0 a2))))

/-- The 5000-row neighbourhood sum: rows of `a0` gathered at the wrapped indices `a8`, each scaled by its weight
    in `a3`, added into a zero table at the rows `a9`. -/
def nhCat (a0 : (⟨S50000x128, .f32⟩ : BufTy).Contents (Elt F)) (a3 : (⟨S600000, .f32⟩ : BufTy).Contents (Elt F))
    (a8 a9 : (⟨S600000, .i32⟩ : BufTy).Contents (Elt F)) : (⟨S5000x128, .f32⟩ : BufTy).Contents (Elt F) :=
  (Host.scatterAdd scatter_S5000x128_S600000x1_S600000x128_1_0_0_1
    (broadcastInDim S5000x128 ![] bcast_S_S5000x128 (constant S_ .f32 0x00000000#32))
    (broadcastInDim S600000x1 ![0] bcast_S600000_S600000x1_0 a9)
    (mulf
      (Host.gather gather_S50000x128_S600000x1_S600000x128_1_0_n_n_0_1_1128
        a0
        (broadcastInDim S600000x1 ![0] bcast_S600000_S600000x1_0
          (select
            (cmpi .slt a8 (broadcastInDim S600000 ![] bcast_S_S600000 (constantI S_ 32 0#32)))
            (addi a8 (broadcastInDim S600000 ![] bcast_S_S600000 (constantI S_ 32 50000#32)))
            a8)))
      (broadcastInDim S600000x128 ![0, 1] bcast_S600000x1_S600000x128_0_1
        (broadcastInDim S600000x1 ![0] bcast_S600000_S600000x1_0 a3))))

/-- The 50000-row side's two layers: the leaky rectifier of `(v + nh) W + b` plus that of `(v * nh) W + b`. -/
def dualG (v nh : (⟨S50000x128, .f32⟩ : BufTy).Contents (Elt F)) (W : (⟨S128x128, .f32⟩ : BufTy).Contents (Elt F))
    (b : (⟨S128, .f32⟩ : BufTy).Contents (Elt F)) : (⟨S50000x128, .f32⟩ : BufTy).Contents (Elt F) :=
  (addf
    (select
      (cmpf .oge
        (addf
          (Host.dotGeneral dot_S50000x128_S128x128_S50000x128_1_0_0_1_n_n none (addf v nh) W)
          (broadcastInDim S50000x128 ![0, 1] bcast_S1x128_S50000x128_0_1
            (broadcastInDim S1x128 ![1] bcast_S128_S1x128_1 b)))
        (broadcastInDim S50000x128 ![] bcast_S_S50000x128 (constant S_ .f32 0x00000000#32)))
      (addf
        (Host.dotGeneral dot_S50000x128_S128x128_S50000x128_1_0_0_1_n_n none (addf v nh) W)
        (broadcastInDim S50000x128 ![0, 1] bcast_S1x128_S50000x128_0_1
          (broadcastInDim S1x128 ![1] bcast_S128_S1x128_1 b)))
      (mulf
        (broadcastInDim S50000x128 ![] bcast_S_S50000x128 (constant S_ .f32 0x3C23D70A#32))
        (addf
          (Host.dotGeneral dot_S50000x128_S128x128_S50000x128_1_0_0_1_n_n none (addf v nh) W)
          (broadcastInDim S50000x128 ![0, 1] bcast_S1x128_S50000x128_0_1
            (broadcastInDim S1x128 ![1] bcast_S128_S1x128_1 b)))))
    (select
      (cmpf .oge
        (addf
          (Host.dotGeneral dot_S50000x128_S128x128_S50000x128_1_0_0_1_n_n none (mulf v nh) W)
          (broadcastInDim S50000x128 ![0, 1] bcast_S1x128_S50000x128_0_1
            (broadcastInDim S1x128 ![1] bcast_S128_S1x128_1 b)))
        (broadcastInDim S50000x128 ![] bcast_S_S50000x128 (constant S_ .f32 0x00000000#32)))
      (addf
        (Host.dotGeneral dot_S50000x128_S128x128_S50000x128_1_0_0_1_n_n none (mulf v nh) W)
        (broadcastInDim S50000x128 ![0, 1] bcast_S1x128_S50000x128_0_1
          (broadcastInDim S1x128 ![1] bcast_S128_S1x128_1 b)))
      (mulf
        (broadcastInDim S50000x128 ![] bcast_S_S50000x128 (constant S_ .f32 0x3C23D70A#32))
        (addf
          (Host.dotGeneral dot_S50000x128_S128x128_S50000x128_1_0_0_1_n_n none (mulf v nh) W)
          (broadcastInDim S50000x128 ![0, 1] bcast_S1x128_S50000x128_0_1
            (broadcastInDim S1x128 ![1] bcast_S128_S1x128_1 b))))))

/-- The 5000-row side's two layers: the leaky rectifier of `(v + nh) W + b` plus that of `(v * nh) W + b`. -/
def dualC (v nh : (⟨S5000x128, .f32⟩ : BufTy).Contents (Elt F)) (W : (⟨S128x128, .f32⟩ : BufTy).Contents (Elt F))
    (b : (⟨S128, .f32⟩ : BufTy).Contents (Elt F)) : (⟨S5000x128, .f32⟩ : BufTy).Contents (Elt F) :=
  (addf
    (select
      (cmpf .oge
        (addf
          (Host.dotGeneral dot_S5000x128_S128x128_S5000x128_1_0_0_1_n_n none (addf v nh) W)
          (broadcastInDim S5000x128 ![0, 1] bcast_S1x128_S5000x128_0_1
            (broadcastInDim S1x128 ![1] bcast_S128_S1x128_1 b)))
        (broadcastInDim S5000x128 ![] bcast_S_S5000x128 (constant S_ .f32 0x00000000#32)))
      (addf
        (Host.dotGeneral dot_S5000x128_S128x128_S5000x128_1_0_0_1_n_n none (addf v nh) W)
        (broadcastInDim S5000x128 ![0, 1] bcast_S1x128_S5000x128_0_1
          (broadcastInDim S1x128 ![1] bcast_S128_S1x128_1 b)))
      (mulf
        (broadcastInDim S5000x128 ![] bcast_S_S5000x128 (constant S_ .f32 0x3C23D70A#32))
        (addf
          (Host.dotGeneral dot_S5000x128_S128x128_S5000x128_1_0_0_1_n_n none (addf v nh) W)
          (broadcastInDim S5000x128 ![0, 1] bcast_S1x128_S5000x128_0_1
            (broadcastInDim S1x128 ![1] bcast_S128_S1x128_1 b)))))
    (select
      (cmpf .oge
        (addf
          (Host.dotGeneral dot_S5000x128_S128x128_S5000x128_1_0_0_1_n_n none (mulf v nh) W)
          (broadcastInDim S5000x128 ![0, 1] bcast_S1x128_S5000x128_0_1
            (broadcastInDim S1x128 ![1] bcast_S128_S1x128_1 b)))
        (broadcastInDim S5000x128 ![] bcast_S_S5000x128 (constant S_ .f32 0x00000000#32)))
      (addf
        (Host.dotGeneral dot_S5000x128_S128x128_S5000x128_1_0_0_1_n_n none (mulf v nh) W)
        (broadcastInDim S5000x128 ![0, 1] bcast_S1x128_S5000x128_0_1
          (broadcastInDim S1x128 ![1] bcast_S128_S1x128_1 b)))
      (mulf
        (broadcastInDim S5000x128 ![] bcast_S_S5000x128 (constant S_ .f32 0x3C23D70A#32))
        (addf
          (Host.dotGeneral dot_S5000x128_S128x128_S5000x128_1_0_0_1_n_n none (mulf v nh) W)
          (broadcastInDim S5000x128 ![0, 1] bcast_S1x128_S5000x128_0_1
            (broadcastInDim S1x128 ![1] bcast_S128_S1x128_1 b))))))

/-- The read-out: rows of `cat` at the wrapped indices `i10`, rows of `grid` at `i11` and at `i12`, stacked along a
    new leading axis. -/
def epi (cat : (⟨S5000x128, .f32⟩ : BufTy).Contents (Elt F)) (grid : (⟨S50000x128, .f32⟩ : BufTy).Contents (Elt F))
    (i10 i11 i12 : (⟨S1024, .i32⟩ : BufTy).Contents (Elt F)) : (⟨S3x1024x128, .f32⟩ : BufTy).Contents (Elt F) :=
  (concatenate S3x1024x128 0 [⟨S1x1024x128,
    (broadcastInDim S1x1024x128 ![1, 2] bcast_S1024x128_S1x1024x128_1_2
        (Host.gather gather_S5000x128_S1024x1_S1024x128_1_0_n_n_0_1_1128
          cat
          (broadcastInDim S1024x1 ![0] bcast_S1024_S1024x1_0
            (select
              (cmpi .slt i10 (broadcastInDim S1024 ![] bcast_S_S1024 (constantI S_ 32 0#32)))
              (addi i10 (broadcastInDim S1024 ![] bcast_S_S1024 (constantI S_ 32 5000#32)))
              i10))))⟩, ⟨S1x1024x128,
    (broadcastInDim S1x1024x128 ![1, 2] bcast_S1024x128_S1x1024x128_1_2
        (Host.gather gather_S50000x128_S1024x1_S1024x128_1_0_n_n_0_1_1128
          grid
          (broadcastInDim S1024x1 ![0] bcast_S1024_S1024x1_0
            (select
              (cmpi .slt i11 (broadcastInDim S1024 ![] bcast_S_S1024 (constantI S_ 32 0#32)))
              (addi i11 (broadcastInDim S1024 ![] bcast_S_S1024 (constantI S_ 32 50000#32)))
              i11))))⟩, ⟨S1x1024x128,
    (broadcastInDim S1x1024x128 ![1, 2] bcast_S1024x128_S1x1024x128_1_2
        (Host.gather gather_S50000x128_S1024x1_S1024x128_1_0_n_n_0_1_1128
          grid
          (broadcastInDim S1024x1 ![0] bcast_S1024_S1024x1_0
            (select
              (cmpi .slt i12 (broadcastInDim S1024 ![] bcast_S_S1024 (constantI S_ 32 0#32)))
              (addi i12 (broadcastInDim S1024 ![] bcast_S_S1024 (constantI S_ 32 50000#32)))
              i12))))⟩] concatenates_S1x1024x128_S1x1024x128_S1x1024x128_S3x1024x128_d0)

/-! ## The operations, stretch by stretch -/

/-- A one-buffer set of written buffers lies in the written-buffer list's set when the buffer is in the list. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The contents after two lines in a row. -/
theorem after_app : ∀ (l₁ l₂ : List (HloOp τ sig (Elt F))) (V : Valuation τ sig (Elt F)),
    after (l₁ ++ l₂) V = after l₂ (after l₁ V)
  | [], _, _ => rfl
  | _ :: l₁, l₂, V => by rw [List.cons_append, after_cons, after_cons, after_app l₁ l₂]

/-- The first neighbourhood sum: the row indices wrapped into range, the rows of the 5000-row table gathered and scaled by the edge weights, scattered (added) into a zero 50000-row table. -/
abbrev opsA : List (HloOp τ sig (Elt F)) :=
  [ StableHlo.nullary main_c (constantI S_ 32 0#32),
    StableHlo.unary main_c main_v0 (broadcastInDim S600000 ![] bcast_S_S600000 : (⟨S_, .i32⟩ : BufTy).Contents (Elt F) → (⟨S600000, .i32⟩ : BufTy).Contents (Elt F)),
    StableHlo.binary main_arg6 main_v0 main_v1 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 5000#32),
    StableHlo.unary main_c_0 main_v2 (broadcastInDim S600000 ![] bcast_S_S600000 : (⟨S_, .i32⟩ : BufTy).Contents (Elt F) → (⟨S600000, .i32⟩ : BufTy).Contents (Elt F)),
    StableHlo.binary main_arg6 main_v2 main_v3 (addi : (⟨S600000, .i32⟩ : BufTy).Contents (Elt F) → (⟨S600000, .i32⟩ : BufTy).Contents (Elt F) → (⟨S600000, .i32⟩ : BufTy).Contents (Elt F)),
    StableHlo.ternary main_v1 main_v3 main_arg6 main_v4 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v4 main_v5 (broadcastInDim S600000x1 ![0] bcast_S600000_S600000x1_0 : (⟨S600000, .i32⟩ : BufTy).Contents (Elt F) → (⟨S600000x1, .i32⟩ : BufTy).Contents (Elt F)),
    StableHlo.binary main_arg1 main_v5 main_v6 ((fun x i => Host.gather gather_S5000x128_S600000x1_S600000x128_1_0_n_n_0_1_1128 x i) : (⟨S5000x128, .f32⟩ : BufTy).Contents (Elt F) → (⟨S600000x1, .i32⟩ : BufTy).Contents (Elt F) → (⟨S600000x128, .f32⟩ : BufTy).Contents (Elt F)),
    StableHlo.unary main_arg2 main_v7 (broadcastInDim S600000x1 ![0] bcast_S600000_S600000x1_0 : (⟨S600000, .f32⟩ : BufTy).Contents (Elt F) → (⟨S600000x1, .f32⟩ : BufTy).Contents (Elt F)),
    StableHlo.unary main_v7 main_v8 (broadcastInDim S600000x128 ![0, 1] bcast_S600000x1_S600000x128_0_1 : (⟨S600000x1, .f32⟩ : BufTy).Contents (Elt F) → (⟨S600000x128, .f32⟩ : BufTy).Contents (Elt F)),
    StableHlo.binary main_v6 main_v8 main_v9 (mulf : (⟨S600000x128, .f32⟩ : BufTy).Contents (Elt F) → (⟨S600000x128, .f32⟩ : BufTy).Contents (Elt F) → (⟨S600000x128, .f32⟩ : BufTy).Contents (Elt F)),
    StableHlo.nullary main_cst (constant S_ .f32 0x00000000#32),
    StableHlo.unary main_cst main_v10 (broadcastInDim S50000x128 ![] bcast_S_S50000x128 : (⟨S_, .f32⟩ : BufTy).Contents (Elt F) → (⟨S50000x128, .f32⟩ : BufTy).Contents (Elt F)),
    StableHlo.unary main_arg7 main_v11 (broadcastInDim S600000x1 ![0] bcast_S600000_S600000x1_0 : (⟨S600000, .i32⟩ : BufTy).Contents (Elt F) → (⟨S600000x1, .i32⟩ : BufTy).Contents (Elt F)),
    StableHlo.ternary main_v10 main_v11 main_v9 main_v12 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]

/-- The buffers the operations of `opsA` write, in order. -/
abbrev opsA_W : List (Ref sig .tc) :=
  [main_c, main_v0, main_v1, main_c_0, main_v2, main_v3, main_v4, main_v5,
   main_v6, main_v7, main_v8, main_v9, main_cst, main_v10, main_v11, main_v12]

theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub ..⟩

theorem opsA_writes : (opsA : List (HloOp τ sig (Elt F))).Forall fun op =>
    op.writes ⊆ (opsA_W.map (Proc.devRef (τ := τ) .tc)).toFinset :=
  ⟨sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide)⟩

theorem opsA_fresh : ∀ op ∈ (opsA : List (HloOp τ sig (Elt F))), op.fresh = ∅ := by
  intro _ h; (repeat (cases h with | head => rfl | tail _ h => ?_)); exact nomatch h

/-- A buffer `opsA` does not write keeps its contents through it. -/
theorem keepA (V : Valuation τ sig (Elt F)) (r : Ref sig .tc) (h : r ∉ opsA_W) :
    after opsA V (Proc.devRef .tc r) = V (Proc.devRef .tc r) :=
  after_of_writes_sub opsA V opsA_writes h

/-- The second neighbourhood sum, the other way round: rows of the 50000-row table gathered, scaled, scattered into a zero 5000-row table. -/
abbrev opsB : List (HloOp τ sig (Elt F)) :=
  [ StableHlo.nullary main_c_1 (constantI S_ 32 0#32),
    StableHlo.unary main_c_1 main_v13 (broadcastInDim S600000 ![] bcast_S_S600000 : (⟨S_, .i32⟩ : BufTy).Contents (Elt F) → (⟨S600000, .i32⟩ : BufTy).Contents (Elt F)),
    StableHlo.binary main_arg8 main_v13 main_v14 (cmpi .slt : (⟨S600000, .i32⟩ : BufTy).Contents (Elt F) → (⟨S600000, .i32⟩ : BufTy).Contents (Elt F) → (⟨S600000, .i1⟩ : BufTy).Contents (Elt F)),
    StableHlo.nullary main_c_2 (constantI S_ 32 50000#32),
    StableHlo.unary main_c_2 main_v15 (broadcastInDim S600000 ![] bcast_S_S600000 : (⟨S_, .i32⟩ : BufTy).Contents (Elt F) → (⟨S600000, .i32⟩ : BufTy).Contents (Elt F)),
    StableHlo.binary main_arg8 main_v15 main_v16 (addi : (⟨S600000, .i32⟩ : BufTy).Contents (Elt F) → (⟨S600000, .i32⟩ : BufTy).Contents (Elt F) → (⟨S600000, .i32⟩ : BufTy).Contents (Elt F)),
    StableHlo.ternary main_v14 main_v16 main_arg8 main_v17 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v17 main_v18 (broadcastInDim S600000x1 ![0] bcast_S600000_S600000x1_0 : (⟨S600000, .i32⟩ : BufTy).Contents (Elt F) → (⟨S600000x1, .i32⟩ : BufTy).Contents (Elt F)),
    StableHlo.binary main_arg0 main_v18 main_v19 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_arg3 main_v20 (broadcastInDim S600000x1 ![0] bcast_S600000_S600000x1_0 : (⟨S600000, .f32⟩ : BufTy).Contents (Elt F) → (⟨S600000x1, .f32⟩ : BufTy).Contents (Elt F)),
    StableHlo.unary main_v20 main_v21 (broadcastInDim S600000x128 ![0, 1] bcast_S600000x1_S600000x128_0_1 : (⟨S600000x1, .f32⟩ : BufTy).Contents (Elt F) → (⟨S600000x128, .f32⟩ : BufTy).Contents (Elt F)),
    StableHlo.binary main_v19 main_v21 main_v22 (mulf : (⟨S600000x128, .f32⟩ : BufTy).Contents (Elt F) → (⟨S600000x128, .f32⟩ : BufTy).Contents (Elt F) → (⟨S600000x128, .f32⟩ : BufTy).Contents (Elt F)),
    StableHlo.nullary main_cst_3 (constant S_ .f32 0x00000000#32),
    StableHlo.unary main_cst_3 main_v23 (broadcastInDim S5000x128 ![] bcast_S_S5000x128 : (⟨S_, .f32⟩ : BufTy).Contents (Elt F) → (⟨S5000x128, .f32⟩ : BufTy).Contents (Elt F)),
    StableHlo.unary main_arg9 main_v24 (broadcastInDim S600000x1 ![0] bcast_S600000_S600000x1_0 : (⟨S600000, .i32⟩ : BufTy).Contents (Elt F) → (⟨S600000x1, .i32⟩ : BufTy).Contents (Elt F)),
    StableHlo.ternary main_v23 main_v24 main_v22 main_v25 ((fun x i u => Host.scatterAdd scatter_S5000x128_S600000x1_S600000x128_1_0_0_1 x i u) : (⟨S5000x128, .f32⟩ : BufTy).Contents (Elt F) → (⟨S600000x1, .i32⟩ : BufTy).Contents (Elt F) → (⟨S600000x128, .f32⟩ : BufTy).Contents (Elt F) → (⟨S5000x128, .f32⟩ : BufTy).Contents (Elt F)) ]

/-- The buffers the operations of `opsB` write, in order. -/
abbrev opsB_W : List (Ref sig .tc) :=
  [main_c_1, main_v13, main_v14, main_c_2, main_v15, main_v16, main_v17, main_v18,
   main_v19, main_v20, main_v21, main_v22, main_cst_3, main_v23, main_v24, main_v25]

theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub ..⟩

theorem opsB_writes : (opsB : List (HloOp τ sig (Elt F))).Forall fun op =>
    op.writes ⊆ (opsB_W.map (Proc.devRef (τ := τ) .tc)).toFinset :=
  ⟨sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide)⟩

theorem opsB_fresh : ∀ op ∈ (opsB : List (HloOp τ sig (Elt F))), op.fresh = ∅ := by
  intro _ h; (repeat (cases h with | head => rfl | tail _ h => ?_)); exact nomatch h

/-- A buffer `opsB` does not write keeps its contents through it. -/
theorem keepB (V : Valuation τ sig (Elt F)) (r : Ref sig .tc) (h : r ∉ opsB_W) :
    after opsB V (Proc.devRef .tc r) = V (Proc.devRef .tc r) :=
  after_of_writes_sub opsB V opsB_writes h

/-- The two dense layers over the 50000-row side, each a matrix product plus bias through the leaky rectifier (its seven operations in place of the call), and their sum. -/
abbrev opsC : List (HloOp τ sig (Elt F)) :=
  [ StableHlo.binary main_arg0 main_v12 main_v26 (addf : (⟨S50000x128, .f32⟩ : BufTy).Contents (Elt F) → (⟨S50000x128, .f32⟩ : BufTy).Contents (Elt F) → (⟨S50000x128, .f32⟩ : BufTy).Contents (Elt F)),
    StableHlo.binary main_v26 main_arg4 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S50000x128 ![0, 1] bcast_S1x128_S50000x128_0_1 : (⟨S1x128, .f32⟩ : BufTy).Contents (Elt F) → (⟨S50000x128, .f32⟩ : BufTy).Contents (Elt F)),
    StableHlo.binary main_v27 main_v29 main_v30 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (.of main_v30 : TRef sig ⟨S50000x128, .f32⟩) main_call0.v0 main_call0.v1 (cmpf .oge),
    TRef.nullary main_call0.cst_0 (constant S_ .f32 0x3C23D70A#32),
    TRef.unary main_call0.cst_0 main_call0.v2 (broadcastInDim S50000x128 ![] bcast_S_S50000x128),
    TRef.binary main_call0.v2 (.of main_v30 : TRef sig ⟨S50000x128, .f32⟩) main_call0.v3 mulf,
    TRef.ternary main_call0.v1 (.of main_v30 : TRef sig ⟨S50000x128, .f32⟩) main_call0.v3 main_call0.call0.v0 select,
    StableHlo.binary main_arg0 main_v12 main_v32 (mulf : (⟨S50000x128, .f32⟩ : BufTy).Contents (Elt F) → (⟨S50000x128, .f32⟩ : BufTy).Contents (Elt F) → (⟨S50000x128, .f32⟩ : BufTy).Contents (Elt F)),
    StableHlo.binary main_v32 main_arg4 main_v33 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S50000x128 ![0, 1] bcast_S1x128_S50000x128_0_1 : (⟨S1x128, .f32⟩ : BufTy).Contents (Elt F) → (⟨S50000x128, .f32⟩ : BufTy).Contents (Elt F)),
    StableHlo.binary main_v33 main_v35 main_v36 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v36 : TRef sig ⟨S50000x128, .f32⟩) main_call1.v0 main_call1.v1 (cmpf .oge),
    TRef.nullary main_call1.cst_0 (constant S_ .f32 0x3C23D70A#32),
    TRef.unary main_call1.cst_0 main_call1.v2 (broadcastInDim S50000x128 ![] bcast_S_S50000x128),
    TRef.binary main_call1.v2 (.of main_v36 : TRef sig ⟨S50000x128, .f32⟩) main_call1.v3 mulf,
    TRef.ternary main_call1.v1 (.of main_v36 : TRef sig ⟨S50000x128, .f32⟩) main_call1.v3 main_call1.call0.v0 select,
    StableHlo.binary main_v31 main_v37 main_v38 (addf : (⟨S50000x128, .f32⟩ : BufTy).Contents (Elt F) → (⟨S50000x128, .f32⟩ : BufTy).Contents (Elt F) → (⟨S50000x128, .f32⟩ : BufTy).Contents (Elt F)) ]

/-- The buffers the operations of `opsC` write, in order. -/
abbrev opsC_W : List (Ref sig .tc) :=
  [main_v26, main_v27, main_v28, main_v29, main_v30, main_call0_cst, main_call0_v0, main_call0_v1,
   main_call0_cst_0, main_call0_v2, main_call0_v3, main_v31, main_v32, main_v33, main_v34, main_v35,
   main_v36, main_call1_cst, main_call1_v0, main_call1_v1, main_call1_cst_0, main_call1_v2, main_call1_v3, main_v37,
   main_v38]

theorem opsC_sub : (opsC : List (HloOp τ sig (Elt F))).Forall fun op => op.bufs ⊆ tcRefs τ sig :=
  ⟨binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    binary_bufs_sub ..⟩

theorem opsC_writes : (opsC : List (HloOp τ sig (Elt F))).Forall fun op =>
    op.writes ⊆ (opsC_W.map (Proc.devRef (τ := τ) .tc)).toFinset :=
  ⟨sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide)⟩

theorem opsC_fresh : ∀ op ∈ (opsC : List (HloOp τ sig (Elt F))), op.fresh = ∅ := by
  intro _ h; (repeat (cases h with | head => rfl | tail _ h => ?_)); exact nomatch h

/-- A buffer `opsC` does not write keeps its contents through it. -/
theorem keepC (V : Valuation τ sig (Elt F)) (r : Ref sig .tc) (h : r ∉ opsC_W) :
    after opsC V (Proc.devRef .tc r) = V (Proc.devRef .tc r) :=
  after_of_writes_sub opsC V opsC_writes h

/-- The same two layers over the 5000-row side and their sum. -/
abbrev opsD : List (HloOp τ sig (Elt F)) :=
  [ StableHlo.binary main_arg1 main_v25 main_v39 (addf : (⟨S5000x128, .f32⟩ : BufTy).Contents (Elt F) → (⟨S5000x128, .f32⟩ : BufTy).Contents (Elt F) → (⟨S5000x128, .f32⟩ : BufTy).Contents (Elt F)),
    StableHlo.binary main_v39 main_arg4 main_v40 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.unary main_arg5 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S5000x128 ![0, 1] bcast_S1x128_S5000x128_0_1 : (⟨S1x128, .f32⟩ : BufTy).Contents (Elt F) → (⟨S5000x128, .f32⟩ : BufTy).Contents (Elt F)),
    StableHlo.binary main_v40 main_v42 main_v43 (addf : (⟨S5000x128, .f32⟩ : BufTy).Contents (Elt F) → (⟨S5000x128, .f32⟩ : BufTy).Contents (Elt F) → (⟨S5000x128, .f32⟩ : BufTy).Contents (Elt F)),
    TRef.nullary main_call2.cst (constant S_ .f32 0x00000000#32),
    TRef.unary main_call2.cst main_call2.v0 (broadcastInDim S5000x128 ![] bcast_S_S5000x128),
    TRef.binary (.of main_v43 : TRef sig ⟨S5000x128, .f32⟩) main_call2.v0 main_call2.v1 (cmpf .oge),
    TRef.nullary main_call2.cst_0 (constant S_ .f32 0x3C23D70A#32),
    TRef.unary main_call2.cst_0 main_call2.v2 (broadcastInDim S5000x128 ![] bcast_S_S5000x128),
    TRef.binary main_call2.v2 (.of main_v43 : TRef sig ⟨S5000x128, .f32⟩) main_call2.v3 mulf,
    TRef.ternary main_call2.v1 (.of main_v43 : TRef sig ⟨S5000x128, .f32⟩) main_call2.v3 main_call2.call0.v0 select,
    StableHlo.binary main_arg1 main_v25 main_v45 (mulf : (⟨S5000x128, .f32⟩ : BufTy).Contents (Elt F) → (⟨S5000x128, .f32⟩ : BufTy).Contents (Elt F) → (⟨S5000x128, .f32⟩ : BufTy).Contents (Elt F)),
    StableHlo.binary main_v45 main_arg4 main_v46 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.unary main_arg5 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S5000x128 ![0, 1] bcast_S1x128_S5000x128_0_1 : (⟨S1x128, .f32⟩ : BufTy).Contents (Elt F) → (⟨S5000x128, .f32⟩ : BufTy).Contents (Elt F)),
    StableHlo.binary main_v46 main_v48 main_v49 (addf : (⟨S5000x128, .f32⟩ : BufTy).Contents (Elt F) → (⟨S5000x128, .f32⟩ : BufTy).Contents (Elt F) → (⟨S5000x128, .f32⟩ : BufTy).Contents (Elt F)),
    TRef.nullary main_call3.cst (constant S_ .f32 0x00000000#32),
    TRef.unary main_call3.cst main_call3.v0 (broadcastInDim S5000x128 ![] bcast_S_S5000x128),
    TRef.binary (.of main_v49 : TRef sig ⟨S5000x128, .f32⟩) main_call3.v0 main_call3.v1 (cmpf .oge),
    TRef.nullary main_call3.cst_0 (constant S_ .f32 0x3C23D70A#32),
    TRef.unary main_call3.cst_0 main_call3.v2 (broadcastInDim S5000x128 ![] bcast_S_S5000x128),
    TRef.binary main_call3.v2 (.of main_v49 : TRef sig ⟨S5000x128, .f32⟩) main_call3.v3 mulf,
    TRef.ternary main_call3.v1 (.of main_v49 : TRef sig ⟨S5000x128, .f32⟩) main_call3.v3 main_call3.call0.v0 select,
    StableHlo.binary main_v44 main_v50 main_v51 (addf : (⟨S5000x128, .f32⟩ : BufTy).Contents (Elt F) → (⟨S5000x128, .f32⟩ : BufTy).Contents (Elt F) → (⟨S5000x128, .f32⟩ : BufTy).Contents (Elt F)) ]

/-- The buffers the operations of `opsD` write, in order. -/
abbrev opsD_W : List (Ref sig .tc) :=
  [main_v39, main_v40, main_v41, main_v42, main_v43, main_call2_cst, main_call2_v0, main_call2_v1,
   main_call2_cst_0, main_call2_v2, main_call2_v3, main_v44, main_v45, main_v46, main_v47, main_v48,
   main_v49, main_call3_cst, main_call3_v0, main_call3_v1, main_call3_cst_0, main_call3_v2, main_call3_v3, main_v50,
   main_v51]

theorem opsD_sub : (opsD : List (HloOp τ sig (Elt F))).Forall fun op => op.bufs ⊆ tcRefs τ sig :=
  ⟨binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    binary_bufs_sub ..⟩

theorem opsD_writes : (opsD : List (HloOp τ sig (Elt F))).Forall fun op =>
    op.writes ⊆ (opsD_W.map (Proc.devRef (τ := τ) .tc)).toFinset :=
  ⟨sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide)⟩

theorem opsD_fresh : ∀ op ∈ (opsD : List (HloOp τ sig (Elt F))), op.fresh = ∅ := by
  intro _ h; (repeat (cases h with | head => rfl | tail _ h => ?_)); exact nomatch h

/-- A buffer `opsD` does not write keeps its contents through it. -/
theorem keepD (V : Valuation τ sig (Elt F)) (r : Ref sig .tc) (h : r ∉ opsD_W) :
    after opsD V (Proc.devRef .tc r) = V (Proc.devRef .tc r) :=
  after_of_writes_sub opsD V opsD_writes h

/-- The three batches of rows read out (indices wrapped into range first), each given a leading axis of length one. -/
abbrev opsE : List (HloOp τ sig (Elt F)) :=
  [ StableHlo.nullary main_c_4 (constantI S_ 32 0#32),
    StableHlo.unary main_c_4 main_v52 (broadcastInDim S1024 ![] bcast_S_S1024 : (⟨S_, .i32⟩ : BufTy).Contents (Elt F) → (⟨S1024, .i32⟩ : BufTy).Contents (Elt F)),
    StableHlo.binary main_arg10 main_v52 main_v53 (cmpi .slt : (⟨S1024, .i32⟩ : BufTy).Contents (Elt F) → (⟨S1024, .i32⟩ : BufTy).Contents (Elt F) → (⟨S1024, .i1⟩ : BufTy).Contents (Elt F)),
    StableHlo.nullary main_c_5 (constantI S_ 32 5000#32),
    StableHlo.unary main_c_5 main_v54 (broadcastInDim S1024 ![] bcast_S_S1024 : (⟨S_, .i32⟩ : BufTy).Contents (Elt F) → (⟨S1024, .i32⟩ : BufTy).Contents (Elt F)),
    StableHlo.binary main_arg10 main_v54 main_v55 (addi : (⟨S1024, .i32⟩ : BufTy).Contents (Elt F) → (⟨S1024, .i32⟩ : BufTy).Contents (Elt F) → (⟨S1024, .i32⟩ : BufTy).Contents (Elt F)),
    StableHlo.ternary main_v53 main_v55 main_arg10 main_v56 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v56 main_v57 (broadcastInDim S1024x1 ![0] bcast_S1024_S1024x1_0 : (⟨S1024, .i32⟩ : BufTy).Contents (Elt F) → (⟨S1024x1, .i32⟩ : BufTy).Contents (Elt F)),
    StableHlo.binary main_v51 main_v57 main_v58 ((fun x i => Host.gather gather_S5000x128_S1024x1_S1024x128_1_0_n_n_0_1_1128 x i) : (⟨S5000x128, .f32⟩ : BufTy).Contents (Elt F) → (⟨S1024x1, .i32⟩ : BufTy).Contents (Elt F) → (⟨S1024x128, .f32⟩ : BufTy).Contents (Elt F)),
    StableHlo.nullary main_c_6 (constantI S_ 32 0#32),
    StableHlo.unary main_c_6 main_v59 (broadcastInDim S1024 ![] bcast_S_S1024 : (⟨S_, .i32⟩ : BufTy).Contents (Elt F) → (⟨S1024, .i32⟩ : BufTy).Contents (Elt F)),
    StableHlo.binary main_arg11 main_v59 main_v60 (cmpi .slt : (⟨S1024, .i32⟩ : BufTy).Contents (Elt F) → (⟨S1024, .i32⟩ : BufTy).Contents (Elt F) → (⟨S1024, .i1⟩ : BufTy).Contents (Elt F)),
    StableHlo.nullary main_c_7 (constantI S_ 32 50000#32),
    StableHlo.unary main_c_7 main_v61 (broadcastInDim S1024 ![] bcast_S_S1024 : (⟨S_, .i32⟩ : BufTy).Contents (Elt F) → (⟨S1024, .i32⟩ : BufTy).Contents (Elt F)),
    StableHlo.binary main_arg11 main_v61 main_v62 (addi : (⟨S1024, .i32⟩ : BufTy).Contents (Elt F) → (⟨S1024, .i32⟩ : BufTy).Contents (Elt F) → (⟨S1024, .i32⟩ : BufTy).Contents (Elt F)),
    StableHlo.ternary main_v60 main_v62 main_arg11 main_v63 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v63 main_v64 (broadcastInDim S1024x1 ![0] bcast_S1024_S1024x1_0 : (⟨S1024, .i32⟩ : BufTy).Contents (Elt F) → (⟨S1024x1, .i32⟩ : BufTy).Contents (Elt F)),
    StableHlo.binary main_v38 main_v64 main_v65 ((fun x i => Host.gather gather_S50000x128_S1024x1_S1024x128_1_0_n_n_0_1_1128 x i) : (⟨S50000x128, .f32⟩ : BufTy).Contents (Elt F) → (⟨S1024x1, .i32⟩ : BufTy).Contents (Elt F) → (⟨S1024x128, .f32⟩ : BufTy).Contents (Elt F)),
    StableHlo.nullary main_c_8 (constantI S_ 32 0#32),
    StableHlo.unary main_c_8 main_v66 (broadcastInDim S1024 ![] bcast_S_S1024 : (⟨S_, .i32⟩ : BufTy).Contents (Elt F) → (⟨S1024, .i32⟩ : BufTy).Contents (Elt F)),
    StableHlo.binary main_arg12 main_v66 main_v67 (cmpi .slt : (⟨S1024, .i32⟩ : BufTy).Contents (Elt F) → (⟨S1024, .i32⟩ : BufTy).Contents (Elt F) → (⟨S1024, .i1⟩ : BufTy).Contents (Elt F)),
    StableHlo.nullary main_c_9 (constantI S_ 32 50000#32),
    StableHlo.unary main_c_9 main_v68 (broadcastInDim S1024 ![] bcast_S_S1024 : (⟨S_, .i32⟩ : BufTy).Contents (Elt F) → (⟨S1024, .i32⟩ : BufTy).Contents (Elt F)),
    StableHlo.binary main_arg12 main_v68 main_v69 (addi : (⟨S1024, .i32⟩ : BufTy).Contents (Elt F) → (⟨S1024, .i32⟩ : BufTy).Contents (Elt F) → (⟨S1024, .i32⟩ : BufTy).Contents (Elt F)),
    StableHlo.ternary main_v67 main_v69 main_arg12 main_v70 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v70 main_v71 (broadcastInDim S1024x1 ![0] bcast_S1024_S1024x1_0 : (⟨S1024, .i32⟩ : BufTy).Contents (Elt F) → (⟨S1024x1, .i32⟩ : BufTy).Contents (Elt F)),
    StableHlo.binary main_v38 main_v71 main_v72 ((fun x i => Host.gather gather_S50000x128_S1024x1_S1024x128_1_0_n_n_0_1_1128 x i) : (⟨S50000x128, .f32⟩ : BufTy).Contents (Elt F) → (⟨S1024x1, .i32⟩ : BufTy).Contents (Elt F) → (⟨S1024x128, .f32⟩ : BufTy).Contents (Elt F)),
    StableHlo.unary main_v58 main_v73 (broadcastInDim S1x1024x128 ![1, 2] bcast_S1024x128_S1x1024x128_1_2 : (⟨S1024x128, .f32⟩ : BufTy).Contents (Elt F) → (⟨S1x1024x128, .f32⟩ : BufTy).Contents (Elt F)),
    StableHlo.unary main_v65 main_v74 (broadcastInDim S1x1024x128 ![1, 2] bcast_S1024x128_S1x1024x128_1_2 : (⟨S1024x128, .f32⟩ : BufTy).Contents (Elt F) → (⟨S1x1024x128, .f32⟩ : BufTy).Contents (Elt F)),
    StableHlo.unary main_v72 main_v75 (broadcastInDim S1x1024x128 ![1, 2] bcast_S1024x128_S1x1024x128_1_2 : (⟨S1024x128, .f32⟩ : BufTy).Contents (Elt F) → (⟨S1x1024x128, .f32⟩ : BufTy).Contents (Elt F)) ]

/-- The buffers the operations of `opsE` write, in order. -/
abbrev opsE_W : List (Ref sig .tc) :=
  [main_c_4, main_v52, main_v53, main_c_5, main_v54, main_v55, main_v56, main_v57,
   main_v58, main_c_6, main_v59, main_v60, main_c_7, main_v61, main_v62, main_v63,
   main_v64, main_v65, main_c_8, main_v66, main_v67, main_c_9, main_v68, main_v69,
   main_v70, main_v71, main_v72, main_v73, main_v74, main_v75]

theorem opsE_sub : (opsE : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., unary_bufs_sub ..⟩

theorem opsE_writes : (opsE : List (HloOp τ sig (Elt F))).Forall fun op =>
    op.writes ⊆ (opsE_W.map (Proc.devRef (τ := τ) .tc)).toFinset :=
  ⟨sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide)⟩

theorem opsE_fresh : ∀ op ∈ (opsE : List (HloOp τ sig (Elt F))), op.fresh = ∅ := by
  intro _ h; (repeat (cases h with | head => rfl | tail _ h => ?_)); exact nomatch h

/-- A buffer `opsE` does not write keeps its contents through it. -/
theorem keepE (V : Valuation τ sig (Elt F)) (r : Ref sig .tc) (h : r ∉ opsE_W) :
    after opsE V (Proc.devRef .tc r) = V (Proc.devRef .tc r) :=
  after_of_writes_sub opsE V opsE_writes h

/-- Their concatenation along the new axis. -/
abbrev opsF : List (HloOp τ sig (Elt F)) :=
  [ StableHlo.nary ![main_v73, main_v74, main_v75] main_v76 (fun u => concatenate S3x1024x128 0 [⟨S1x1024x128, u 0⟩, ⟨S1x1024x128, u 1⟩, ⟨S1x1024x128, u 2⟩] concatenates_S1x1024x128_S1x1024x128_S1x1024x128_S3x1024x128_d0) ]

/-- The buffers the operations of `opsF` write, in order. -/
abbrev opsF_W : List (Ref sig .tc) :=
  [main_v76]

theorem opsF_sub : (opsF : List (HloOp τ sig (Elt F))).Forall fun op => op.bufs ⊆ tcRefs τ sig :=
  (nary_bufs_sub ..)

theorem opsF_writes : (opsF : List (HloOp τ sig (Elt F))).Forall fun op =>
    op.writes ⊆ (opsF_W.map (Proc.devRef (τ := τ) .tc)).toFinset :=
  (sub_of_mem (by decide))

theorem opsF_fresh : ∀ op ∈ (opsF : List (HloOp τ sig (Elt F))), op.fresh = ∅ := by
  intro _ h; (repeat (cases h with | head => rfl | tail _ h => ?_)); exact nomatch h

/-- A buffer `opsF` does not write keeps its contents through it. -/
theorem keepF (V : Valuation τ sig (Elt F)) (r : Ref sig .tc) (h : r ∉ opsF_W) :
    after opsF V (Proc.devRef .tc r) = V (Proc.devRef .tc r) :=
  after_of_writes_sub opsF V opsF_writes h

/-! ## Each stretch's result -/

theorem valA (V : Valuation τ sig (Elt F)) :
    after opsA V (Proc.devRef .tc main_v12)
      = nhGrid (V (Proc.devRef .tc main_arg1)) (V (Proc.devRef .tc main_arg2)) (V (Proc.devRef .tc main_arg6)) (V (Proc.devRef .tc main_arg7)) := by
  simp only [opsA]
  after_results_simp
  rfl

theorem valB (V : Valuation τ sig (Elt F)) :
    after opsB V (Proc.devRef .tc main_v25)
      = nhCat (V (Proc.devRef .tc main_arg0)) (V (Proc.devRef .tc main_arg3)) (V (Proc.devRef .tc main_arg8)) (V (Proc.devRef .tc main_arg9)) := by
  simp only [opsB]
  after_results_simp
  rfl

theorem valC (V : Valuation τ sig (Elt F)) :
    after opsC V (Proc.devRef .tc main_v38)
      = dualG (V (Proc.devRef .tc main_arg0)) (V (Proc.devRef .tc main_v12)) (V (Proc.devRef .tc main_arg4)) (V (Proc.devRef .tc main_arg5)) := by
  simp only [opsC]
  after_results_simp
  rfl

theorem valD (V : Valuation τ sig (Elt F)) :
    after opsD V (Proc.devRef .tc main_v51)
      = dualC (V (Proc.devRef .tc main_arg1)) (V (Proc.devRef .tc main_v25)) (V (Proc.devRef .tc main_arg4)) (V (Proc.devRef .tc main_arg5)) := by
  simp only [opsD]
  after_results_simp
  rfl

theorem valE73 (V : Valuation τ sig (Elt F)) :
    after opsE V (Proc.devRef .tc main_v73)
      = (broadcastInDim S1x1024x128 ![1, 2] bcast_S1024x128_S1x1024x128_1_2
        (Host.gather gather_S5000x128_S1024x1_S1024x128_1_0_n_n_0_1_1128
          (V (Proc.devRef .tc main_v51))
          (broadcastInDim S1024x1 ![0] bcast_S1024_S1024x1_0
            (select
              (cmpi .slt (V (Proc.devRef .tc main_arg10)) (broadcastInDim S1024 ![] bcast_S_S1024 (constantI S_ 32 0#32)))
              (addi (V (Proc.devRef .tc main_arg10)) (broadcastInDim S1024 ![] bcast_S_S1024 (constantI S_ 32 5000#32)))
              (V (Proc.devRef .tc main_arg10)))))) := by
  simp only [opsE]
  after_results_simp

theorem valE74 (V : Valuation τ sig (Elt F)) :
    after opsE V (Proc.devRef .tc main_v74)
      = (broadcastInDim S1x1024x128 ![1, 2] bcast_S1024x128_S1x1024x128_1_2
        (Host.gather gather_S50000x128_S1024x1_S1024x128_1_0_n_n_0_1_1128
          (V (Proc.devRef .tc main_v38))
          (broadcastInDim S1024x1 ![0] bcast_S1024_S1024x1_0
            (select
              (cmpi .slt (V (Proc.devRef .tc main_arg11)) (broadcastInDim S1024 ![] bcast_S_S1024 (constantI S_ 32 0#32)))
              (addi (V (Proc.devRef .tc main_arg11)) (broadcastInDim S1024 ![] bcast_S_S1024 (constantI S_ 32 50000#32)))
              (V (Proc.devRef .tc main_arg11)))))) := by
  simp only [opsE]
  after_results_simp

theorem valE75 (V : Valuation τ sig (Elt F)) :
    after opsE V (Proc.devRef .tc main_v75)
      = (broadcastInDim S1x1024x128 ![1, 2] bcast_S1024x128_S1x1024x128_1_2
        (Host.gather gather_S50000x128_S1024x1_S1024x128_1_0_n_n_0_1_1128
          (V (Proc.devRef .tc main_v38))
          (broadcastInDim S1024x1 ![0] bcast_S1024_S1024x1_0
            (select
              (cmpi .slt (V (Proc.devRef .tc main_arg12)) (broadcastInDim S1024 ![] bcast_S_S1024 (constantI S_ 32 0#32)))
              (addi (V (Proc.devRef .tc main_arg12)) (broadcastInDim S1024 ![] bcast_S_S1024 (constantI S_ 32 50000#32)))
              (V (Proc.devRef .tc main_arg12)))))) := by
  simp only [opsE]
  after_results_simp

/-- The concatenation's result: the three operands' contents, each read at its own buffer. -/
theorem valF (V : Valuation τ sig (Elt F)) :
    after opsF V (Proc.devRef .tc main_v76)
      = (concatenate S3x1024x128 0 [⟨S1x1024x128, (V (Proc.devRef .tc main_v73) : (⟨S1x1024x128, .f32⟩ : BufTy).Contents (Elt F))⟩,
          ⟨S1x1024x128, (V (Proc.devRef .tc main_v74) : (⟨S1x1024x128, .f32⟩ : BufTy).Contents (Elt F))⟩,
          ⟨S1x1024x128, (V (Proc.devRef .tc main_v75) : (⟨S1x1024x128, .f32⟩ : BufTy).Contents (Elt F))⟩]
          concatenates_S1x1024x128_S1x1024x128_S1x1024x128_S3x1024x128_d0 : (⟨S3x1024x128, .f32⟩ : BufTy).Contents (Elt F)) := by
  simp only [opsF, after_cons, after_nil]
  rw [nary_result]
  rfl

/-- The last two stretches together: the read-out of the buffers they read. -/
theorem valEF (V : Valuation τ sig (Elt F)) :
    after opsF (after opsE V) (Proc.devRef .tc main_v76)
      = epi (V (Proc.devRef .tc main_v51)) (V (Proc.devRef .tc main_v38)) (V (Proc.devRef .tc main_arg10)) (V (Proc.devRef .tc main_arg11)) (V (Proc.devRef .tc main_arg12)) := by
  rw [valF, valE73, valE74, valE75]
  rfl

/-! ## The whole line -/

/-- @main's 113 operations, in order. -/
abbrev ops : List (HloOp τ sig (Elt F)) := opsA ++ (opsB ++ (opsC ++ (opsD ++ (opsE ++ opsF))))

-- one hundred and thirteen binds re-associated: the rewrite recurses once per statement
set_option maxRecDepth 8192 in
set_option maxHeartbeats 8000000 in
/-- @main is that straight line: the two windows in order, the rectifier's definition unfolded at its four calls and
    the selection's inside it; both sides are one chain of steps once sequencing is re-associated. -/
theorem main_eq (c : Dev nD) : main (F := F) c = seq ops := by
  simp only [main, main_part0, main_part1, fn_leaky_relu.body, fn_leaky_relu_0.body, fn_where.body, fn_where_1.body,
    ops, opsA, opsB, opsC, opsD, opsE, opsF, List.cons_append, List.nil_append, seq, bind_assoc, pure_bind]

/-- Every operation touches TensorCore references only. -/
theorem ops_sub : (ops : List (HloOp τ sig (Elt F))).Forall fun op => op.bufs ⊆ tcRefs τ sig :=
  List.forall_iff_forall_mem.2 fun op h => by
    simp only [ops, List.mem_append] at h
    rcases h with h | h | h | h | h | h
    · exact List.forall_iff_forall_mem.1 opsA_sub op h
    · exact List.forall_iff_forall_mem.1 opsB_sub op h
    · exact List.forall_iff_forall_mem.1 opsC_sub op h
    · exact List.forall_iff_forall_mem.1 opsD_sub op h
    · exact List.forall_iff_forall_mem.1 opsE_sub op h
    · exact List.forall_iff_forall_mem.1 opsF_sub op h

/-- Every operation determines its results. -/
theorem ops_fresh : ∀ op ∈ (ops : List (HloOp τ sig (Elt F))), op.fresh = ∅ := by
  intro op h
  simp only [ops, List.mem_append] at h
  rcases h with h | h | h | h | h | h
  · exact opsA_fresh op h
  · exact opsB_fresh op h
  · exact opsC_fresh op h
  · exact opsD_fresh op h
  · exact opsE_fresh op h
  · exact opsF_fresh op h

theorem scopedRefs_eq : (Finset.univ.filter fun b : Ref sig .tc => b.isScoped) = ∅ := by decide
theorem scopedSems_eq : (Finset.univ.filter fun sm : SemLoc sig => sm.isScoped .tc) = ∅ := by decide

/-- A buffer no stretch writes keeps its contents through the whole line. -/
theorem ops_keep (V : Valuation τ sig (Elt F)) (r : Ref sig .tc) (hA : r ∉ opsA_W) (hB : r ∉ opsB_W) (hC : r ∉ opsC_W)
    (hD : r ∉ opsD_W) (hE : r ∉ opsE_W) (hF : r ∉ opsF_W) :
    after ops V (Proc.devRef .tc r) = V (Proc.devRef .tc r) := by
  simp only [ops, after_app]
  rw [keepF _ r hF, keepE _ r hE, keepD _ r hD, keepC _ r hC, keepB _ r hB, keepA _ r hA]

/-- The result buffer after the whole line: the read-out of the two sides' layers over the two neighbourhood sums,
    each stretch's result substituted where the next reads it, everything else read where no stretch wrote. -/
theorem ops_v76 (V : Valuation τ sig (Elt F)) :
    after ops V (Proc.devRef .tc main_v76)
      = epi (dualC (V (Proc.devRef .tc main_arg1)) (nhCat (V (Proc.devRef .tc main_arg0)) (V (Proc.devRef .tc main_arg3)) (V (Proc.devRef .tc main_arg8)) (V (Proc.devRef .tc main_arg9))) (V (Proc.devRef .tc main_arg4)) (V (Proc.devRef .tc main_arg5)))
          (dualG (V (Proc.devRef .tc main_arg0)) (nhGrid (V (Proc.devRef .tc main_arg1)) (V (Proc.devRef .tc main_arg2)) (V (Proc.devRef .tc main_arg6)) (V (Proc.devRef .tc main_arg7))) (V (Proc.devRef .tc main_arg4)) (V (Proc.devRef .tc main_arg5)))
          (V (Proc.devRef .tc main_arg10)) (V (Proc.devRef .tc main_arg11)) (V (Proc.devRef .tc main_arg12)) := by
  simp only [ops, after_app]
  rw [valEF, valD, keepD _ main_v38 (by decide), keepD _ main_arg10 (by decide), keepD _ main_arg11 (by decide), keepD _ main_arg12 (by decide)]
  rw [valC, keepC _ main_arg1 (by decide), keepC _ main_v25 (by decide), keepC _ main_arg4 (by decide), keepC _ main_arg5 (by decide), keepC _ main_arg10 (by decide), keepC _ main_arg11 (by decide), keepC _ main_arg12 (by decide)]
  rw [valB, keepB _ main_arg0 (by decide), keepB _ main_v12 (by decide), keepB _ main_arg1 (by decide), keepB _ main_arg4 (by decide), keepB _ main_arg5 (by decide), keepB _ main_arg10 (by decide), keepB _ main_arg11 (by decide), keepB _ main_arg12 (by decide)]
  rw [valA, keepA _ main_arg0 (by decide), keepA _ main_arg1 (by decide), keepA _ main_arg3 (by decide), keepA _ main_arg4 (by decide), keepA _ main_arg5 (by decide), keepA _ main_arg8 (by decide), keepA _ main_arg9 (by decide), keepA _ main_arg10 (by decide), keepA _ main_arg11 (by decide), keepA _ main_arg12 (by decide)]

/-! ## The run -/

/-- On every device, for any float values, from any memory with zero counters: every weakly fair execution of @main
    terminates with the result buffer at the composed term of the arguments' launch contents and the thirteen
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v76)
        = epi (dualC (m ((c.tc : Thread nD τ).loc main_arg1)) (nhCat (m ((c.tc : Thread nD τ).loc main_arg0)) (m ((c.tc : Thread nD τ).loc main_arg3)) (m ((c.tc : Thread nD τ).loc main_arg8)) (m ((c.tc : Thread nD τ).loc main_arg9))) (m ((c.tc : Thread nD τ).loc main_arg4)) (m ((c.tc : Thread nD τ).loc main_arg5)))
            (dualG (m ((c.tc : Thread nD τ).loc main_arg0)) (nhGrid (m ((c.tc : Thread nD τ).loc main_arg1)) (m ((c.tc : Thread nD τ).loc main_arg2)) (m ((c.tc : Thread nD τ).loc main_arg6)) (m ((c.tc : Thread nD τ).loc main_arg7))) (m ((c.tc : Thread nD τ).loc main_arg4)) (m ((c.tc : Thread nD τ).loc main_arg5)))
            (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v76).trans (ops_v76 _),
      (h c main_arg0).trans (ops_keep _ main_arg0 (by decide) (by decide) (by decide) (by decide) (by decide) (by decide)),
      (h c main_arg1).trans (ops_keep _ main_arg1 (by decide) (by decide) (by decide) (by decide) (by decide) (by decide)),
      (h c main_arg2).trans (ops_keep _ main_arg2 (by decide) (by decide) (by decide) (by decide) (by decide) (by decide)),
      (h c main_arg3).trans (ops_keep _ main_arg3 (by decide) (by decide) (by decide) (by decide) (by decide) (by decide)),
      (h c main_arg4).trans (ops_keep _ main_arg4 (by decide) (by decide) (by decide) (by decide) (by decide) (by decide)),
      (h c main_arg5).trans (ops_keep _ main_arg5 (by decide) (by decide) (by decide) (by decide) (by decide) (by decide)),
      (h c main_arg6).trans (ops_keep _ main_arg6 (by decide) (by decide) (by decide) (by decide) (by decide) (by decide)),
      (h c main_arg7).trans (ops_keep _ main_arg7 (by decide) (by decide) (by decide) (by decide) (by decide) (by decide)),
      (h c main_arg8).trans (ops_keep _ main_arg8 (by decide) (by decide) (by decide) (by decide) (by decide) (by decide)),
      (h c main_arg9).trans (ops_keep _ main_arg9 (by decide) (by decide) (by decide) (by decide) (by decide) (by decide)),
      (h c main_arg10).trans (ops_keep _ main_arg10 (by decide) (by decide) (by decide) (by decide) (by decide) (by decide)),
      (h c main_arg11).trans (ops_keep _ main_arg11 (by decide) (by decide) (by decide) (by decide) (by decide) (by decide)),
      (h c main_arg12).trans (ops_keep _ main_arg12 (by decide) (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.LibDotGeneral.lean ====
/-
  The host's rank-2 `dot_general` read at an index, at the exact extended reals: when the dimension numbers contract the
  left operand's column axis with the right operand's row axis and keep the other two axes in order, the product is, at
  row `p` and column `q`, the sum over `k` of `lhs (p, k) · rhs (k, q)`, whatever the schedule key — a sum over the
  contracted extent itself, not over the contraction's own index type.
-/
import Idealize.ShloMosaic.PureOps.Ideal.Laws
import Idealize.ShloMosaic.Lib.ValueIdx

noncomputable section

namespace Cert.LibDotGeneral

open Idealize.ShloMosaic Idealize.ShloMosaic.ValueIdx

/-- A product `[a, K] × [K, b] → [a, b]` on the host, at an output index `j`: the four coordinate facts say which operand
    entries the dimension numbers pair at the contraction index; the contraction has one axis, of extent `K`, and the sum
    is re-indexed along it. -/
theorem dotGeneral_ix2 {a K b : Nat} {φ₁ φ₂ : FTy}
    (d : DotDims ⟨2, ![a, K]⟩ ⟨2, ![K, b]⟩ ⟨2, ![a, b]⟩) (prec : Option ContractPrecision) (sched : HostSchedule)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.dotGeneral d prec sched lhs rhs j = ∑ k : Fin K, lhs (ix2 (j 0) k) * rhs (ix2 k (j 1)) := by
  rw [Ideal.dotGeneral_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibDotGeneral

end
-- ==== Proof.RefRead.lean ====
/-
  The reference's two dual-branch layers read at an index on the exact extended reals: each is the specification
  `Cert.Spec.dual` of its node features, aggregated messages, weight matrix and bias.
-/
import proofs.«155794_j12773232738836_1_alg».proof.Proof.RefRun
import proofs.«155794_j12773232738836_1_alg».proof.Proof.Spec
import proofs.«155794_j12773232738836_1_alg».proof.Proof.LibDotGeneral
import Idealize.ShloMosaic.Lib.Pipeline.Value
import Idealize.ShloMosaic.PureOps.Ideal.Laws

noncomputable section

namespace Cert.ReferenceIdeal.RefRun

open Cert.ReferenceIdeal Cert.ReferenceIdeal.Gen
open Idealize.ShloMosaic Idealize.ShloMosaic.ValueIdx

/-! ## The 50000-row side -/

theorem dG_rank : (dot_S50000x128_S128x128_S50000x128_1_0_0_1_n_n).contr.rank = 1 := rfl
theorem dG_size : (dot_S50000x128_S128x128_S50000x128_1_0_0_1_n_n).contr.size ⟨0, by rw [dG_rank]; omega⟩ = 128 := rfl
theorem dG_l0 : ∀ (j : S50000x128.Idx) q, ((dot_S50000x128_S128x128_S50000x128_1_0_0_1_n_n).lhsIdx j q 0).val = (j 0).val := fun _ _ => rfl
theorem dG_l1 : ∀ (j : S50000x128.Idx) q, ((dot_S50000x128_S128x128_S50000x128_1_0_0_1_n_n).lhsIdx j q 1).val = (q ⟨0, by rw [dG_rank]; omega⟩).val := fun _ _ => rfl
theorem dG_r0 : ∀ (j : S50000x128.Idx) q, ((dot_S50000x128_S128x128_S50000x128_1_0_0_1_n_n).rhsIdx j q 0).val = (q ⟨0, by rw [dG_rank]; omega⟩).val := fun _ _ => rfl
theorem dG_r1 : ∀ (j : S50000x128.Idx) q, ((dot_S50000x128_S128x128_S50000x128_1_0_0_1_n_n).rhsIdx j q 1).val = (j 1).val := fun _ _ => rfl

/-- The host's matrix product of a 50000-row array with the weight matrix, at row `p` and column `q`: the sum over the 128
    columns of row `p` against the matrix's column `q`. -/
theorem dgG_apply (a : FVec Ideal S50000x128 .f32) (w : FVec Ideal S128x128 .f32) (p : Fin 50000) (q : Fin 128) :
    Host.dotGeneral dot_S50000x128_S128x128_S50000x128_1_0_0_1_n_n none a w (ix2 p q) = ∑ k : Fin 128, a (ix2 p k) * w (ix2 k q) :=
  Cert.LibDotGeneral.dotGeneral_ix2 dot_S50000x128_S128x128_S50000x128_1_0_0_1_n_n none _ dG_rank dG_size dG_l0 dG_l1 dG_r0 dG_r1 a w (ix2 p q)

/-- The bias laid out as one row and repeated over the 50000 rows holds, at (p, q), the bias entry q. -/
theorem biasG_apply (b : FVec Ideal S128 .f32) (p : Fin 50000) (q : Fin 128) :
    broadcastInDim S50000x128 ![0, 1] bcast_S1x128_S50000x128_0_1 (broadcastInDim S1x128 ![1] bcast_S128_S1x128_1 b) (ix2 p q) = b (ix1 q) :=
  (broadcastInDim_apply ![0, 1] bcast_S1x128_S50000x128_0_1 _ (ix2 p q) (ix2 (0 : Fin 1) q)
      (fun a => by match a with | ⟨0, _⟩ => rfl | ⟨1, _⟩ => rfl)).trans
    (broadcastInDim_apply ![1] bcast_S128_S1x128_1 b (ix2 (0 : Fin 1) q) (ix1 q) (fun a => by match a with | ⟨0, _⟩ => rfl))

/-- The reference's two layers on the 50000-row side are the specification: the host's matrix products are the two sums,
    the bias broadcast is its entry at the column, the broadcast constants are their words, and the rectifier is spelt as
    in the specification. -/
theorem dualG_eq (v nh : FVec Ideal S50000x128 .f32) (W : FVec Ideal S128x128 .f32) (b : FVec Ideal S128 .f32) :
    dualG (F := Ideal) v nh W b = Cert.Spec.dual (M := 50000) v nh W b := by
  funext j
  obtain ⟨p, q, rfl⟩ : ∃ (p : Fin 50000) (q : Fin 128), j = ix2 p q := ⟨j 0, j 1, eq_ix2 j⟩
  unfold dualG
  simp only [addf_apply, select_apply, cmpf_apply, mulf_apply]
  rw [dgG_apply, dgG_apply, biasG_apply]
  rfl

/-! ## The 5000-row side -/

theorem dC_rank : (dot_S5000x128_S128x128_S5000x128_1_0_0_1_n_n).contr.rank = 1 := rfl
theorem dC_size : (dot_S5000x128_S128x128_S5000x128_1_0_0_1_n_n).contr.size ⟨0, by rw [dC_rank]; omega⟩ = 128 := rfl
theorem dC_l0 : ∀ (j : S5000x128.Idx) q, ((dot_S5000x128_S128x128_S5000x128_1_0_0_1_n_n).lhsIdx j q 0).val = (j 0).val := fun _ _ => rfl
theorem dC_l1 : ∀ (j : S5000x128.Idx) q, ((dot_S5000x128_S128x128_S5000x128_1_0_0_1_n_n).lhsIdx j q 1).val = (q ⟨0, by rw [dC_rank]; omega⟩).val := fun _ _ => rfl
theorem dC_r0 : ∀ (j : S5000x128.Idx) q, ((dot_S5000x128_S128x128_S5000x128_1_0_0_1_n_n).rhsIdx j q 0).val = (q ⟨0, by rw [dC_rank]; omega⟩).val := fun _ _ => rfl
theorem dC_r1 : ∀ (j : S5000x128.Idx) q, ((dot_S5000x128_S128x128_S5000x128_1_0_0_1_n_n).rhsIdx j q 1).val = (j 1).val := fun _ _ => rfl

/-- The host's matrix product of a 5000-row array with the weight matrix, at row `p` and column `q`: the sum over the 128
    columns of row `p` against the matrix's column `q`. -/
theorem dgC_apply (a : FVec Ideal S5000x128 .f32) (w : FVec Ideal S128x128 .f32) (p : Fin 5000) (q : Fin 128) :
    Host.dotGeneral dot_S5000x128_S128x128_S5000x128_1_0_0_1_n_n none a w (ix2 p q) = ∑ k : Fin 128, a (ix2 p k) * w (ix2 k q) :=
  Cert.LibDotGeneral.dotGeneral_ix2 dot_S5000x128_S128x128_S5000x128_1_0_0_1_n_n none _ dC_rank dC_size dC_l0 dC_l1 dC_r0 dC_r1 a w (ix2 p q)

/-- The bias laid out as one row and repeated over the 5000 rows holds, at (p, q), the bias entry q. -/
theorem biasC_apply (b : FVec Ideal S128 .f32) (p : Fin 5000) (q : Fin 128) :
    broadcastInDim S5000x128 ![0, 1] bcast_S1x128_S5000x128_0_1 (broadcastInDim S1x128 ![1] bcast_S128_S1x128_1 b) (ix2 p q) = b (ix1 q) :=
  (broadcastInDim_apply ![0, 1] bcast_S1x128_S5000x128_0_1 _ (ix2 p q) (ix2 (0 : Fin 1) q)
      (fun a => by match a with | ⟨0, _⟩ => rfl | ⟨1, _⟩ => rfl)).trans
    (broadcastInDim_apply ![1] bcast_S128_S1x128_1 b (ix2 (0 : Fin 1) q) (ix1 q) (fun a => by match a with | ⟨0, _⟩ => rfl))

/-- The reference's two layers on the 5000-row side are the specification: the host's matrix products are the two sums,
    the bias broadcast is its entry at the column, the broadcast constants are their words, and the rectifier is spelt as
    in the specification. -/
theorem dualC_eq (v nh : FVec Ideal S5000x128 .f32) (W : FVec Ideal S128x128 .f32) (b : FVec Ideal S128 .f32) :
    dualC (F := Ideal) v nh W b = Cert.Spec.dual (M := 5000) v nh W b := by
  funext j
  obtain ⟨p, q, rfl⟩ : ∃ (p : Fin 5000) (q : Fin 128), j = ix2 p q := ⟨j 0, j 1, eq_ix2 j⟩
  unfold dualC
  simp only [addf_apply, select_apply, cmpf_apply, mulf_apply]
  rw [dgC_apply, dgC_apply, biasC_apply]
  rfl

end Cert.ReferenceIdeal.RefRun

end
-- ==== Proof.LibNary.lean ====
/-
  The result of a many-operand host operation over a LITERAL family of references, with each operand's contents at
  its own reference: the form under which a line's contents keep being computed operand by operand. The library
  states it for four operands; here for three and for six, with the computation of a line's contents that uses them.
-/
import Idealize.ShloMosaic.Lib.StableHlo.Run

noncomputable section

namespace Idealize.ShloMosaic.StableHlo

variable {τ : Topo} {sig : RefSig} {Val : EltTy → Type}
variable {x0 x1 x2 x3 x4 x5 y : Ref sig .tc}

/-- A three-operand operation's result at its own buffer is its function of the three operands' contents, each
    read at its own reference (rather than at the family applied to a bound position). -/
theorem nary3_result
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (Proc.devRef .tc y)
      = f (Fin.cons (F (Proc.devRef .tc x0)) (Fin.cons (F (Proc.devRef .tc x1)) (Fin.cons (F (Proc.devRef .tc x2)) (fun i => i.elim0)))) := by
  rw [nary_result]; congr 1; funext k; fin_cases k <;> rfl

/-- The same for six operands. -/
theorem nary6_result
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5)) (fun i => i.elim0))))))) := by
  rw [nary_result]; congr 1; funext k; fin_cases k <;> rfl

/-- What one buffer holds after a literal line of host operations, computed operation by operation: each operation's
    result at its own buffer is its function's value, at any other reference what was there (the references told
    apart by evaluation); a three- or six-operand operation's operands are read each at its own reference, so the
    computation goes on through them. -/
macro "after_results_n" : tactic =>
  `(tactic| (simp only [after_cons, after_nil]
             repeat (first
               | rw [nullary_result] | rw [unary_result] | rw [binary_result] | rw [ternary_result] | rw [quaternary_result]
               | rw [reshape_result] | rw [nary3_result] | rw [nary6_result] | rw [nary4_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

/-- The two results above restated for one simplification pass (the result reference un-indexed, as the library
    does for its own). -/
theorem nary3_result'
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (no_index (Proc.devRef .tc y))
      = f (Fin.cons (F (Proc.devRef .tc x0)) (Fin.cons (F (Proc.devRef .tc x1)) (Fin.cons (F (Proc.devRef .tc x2)) (fun i => i.elim0)))) :=
  nary3_result f hxs hy F
theorem nary6_result'
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5)) (fun i => i.elim0))))))) :=
  nary6_result f hxs hy F

/-- The same computation as one simplification pass: each shared subterm is visited once. -/
macro "after_results_simp_n" : tactic =>
  `(tactic| (simp (disch := decide) only [after_cons, after_nil,
      nullary_result', unary_result', binary_result', ternary_result', quaternary_result', reshape_result',
      nary3_result', nary6_result', nary4_result',
      nullary_result_ne', unary_result_ne', binary_result_ne', ternary_result_ne', quaternary_result_ne', reshape_result_ne',
      nary_result_ne']))

end Idealize.ShloMosaic.StableHlo

end
-- ==== Proof.Bridge.lean ====
/-
  The two programs meet, on the exact extended reals.

  The kernel program's host stretches apply the same operations as the reference's (gather, scale and segment-sum
  before the kernels; gather rows and stack after them), so what they leave is the reference's own terms of the same
  buffers. Between them each kernel region leaves the specification `Cert.Spec.dual` of the arrays it finds, and the
  reference's two dual-branch layers are that specification too. Hence both programs end with the same result: the
  read-out of `dual` of the launch arrays and their neighbourhood sums.
-/
import proofs.«155794_j12773232738836_1_alg».proof.Defs
import proofs.«155794_j12773232738836_1_alg».proof.Proof.Gen.Pre_finite_inputs
import proofs.«155794_j12773232738836_1_alg».proof.Proof.KRun
import proofs.«155794_j12773232738836_1_alg».proof.Proof.KIValue
import proofs.«155794_j12773232738836_1_alg».proof.Proof.KITrace
import proofs.«155794_j12773232738836_1_alg».proof.Proof.RefRead
import proofs.«155794_j12773232738836_1_alg».proof.Proof.LibNary
import Idealize.ShloMosaic.Lib.StableHlo.Run

set_option maxRecDepth 16384

noncomputable section

namespace Cert.Bridge

open Cert.KernelIdeal Cert.KernelIdeal.Gen Cert.KernelIdeal.GenP Cert.KernelIdeal.Hand
open Idealize.ShloMosaic Idealize.ShloMosaic.TcCoe Idealize.SL.Sem Idealize.ShloMosaic.StableHlo

variable (m : (ℓ : Loc nD τ sig) → Buf (Elt Ideal) ℓ)

/-! ## The kernel program's host stretches, read against the reference's terms -/

set_option maxHeartbeats 4000000 in
/-- The first stretch leaves in the grid nodes' message buffer the reference's neighbourhood sum of the launch arrays. -/
theorem v12_eq (c : Dev nD) : V1 m c main_v12
    = Cert.ReferenceIdeal.RefRun.nhGrid (F := Ideal) (m ((c : Thread nD τ).loc main_arg1)) (m ((c : Thread nD τ).loc main_arg2)) (m ((c : Thread nD τ).loc main_arg6)) (m ((c : Thread nD τ).loc main_arg7)) := by
  show StableHlo.after hostOps0 (W0 m c) (Proc.devRef .tc main_v12) = _
  after_results_simp
  rfl

set_option maxHeartbeats 4000000 in
/-- and in the category nodes' message buffer the other neighbourhood sum. -/
theorem v25_eq (c : Dev nD) : V1 m c main_v25
    = Cert.ReferenceIdeal.RefRun.nhCat (F := Ideal) (m ((c : Thread nD τ).loc main_arg0)) (m ((c : Thread nD τ).loc main_arg3)) (m ((c : Thread nD τ).loc main_arg8)) (m ((c : Thread nD τ).loc main_arg9)) := by
  show StableHlo.after hostOps0 (W0 m c) (Proc.devRef .tc main_v25) = _
  after_results_simp
  rfl

set_option maxHeartbeats 4000000 in
/-- The last stretch leaves in the result buffer the reference's read-out of what it finds in the two regions' output
    arrays and the three index arrays. -/
theorem v52_eq (c : Dev nD) : W4 m c (Proc.devRef .tc main_v52)
    = Cert.ReferenceIdeal.RefRun.epi (F := Ideal) (W3 m c (Proc.devRef .tc main_v27)) (W3 m c (Proc.devRef .tc main_v26))
        (W3 m c (Proc.devRef .tc main_arg10)) (W3 m c (Proc.devRef .tc main_arg11)) (W3 m c (Proc.devRef .tc main_arg12)) := by
  show StableHlo.after hostOps2 (W3 m c) (Proc.devRef .tc main_v52) = _
  generalize W3 m c = X
  after_results_simp_n
  rfl

/-! ## The kernel program's result in closed form -/

/-- What both programs return on core `c`, as a term of the launch arrays. -/
def result (c : Dev nD) : Buf (Elt Ideal) ((c.tc : Thread nD τ).loc main_v52) :=
  Cert.ReferenceIdeal.RefRun.epi (F := Ideal)
    (Cert.Spec.dual (M := 5000) (m ((c : Thread nD τ).loc main_arg1)) (Cert.ReferenceIdeal.RefRun.nhCat (F := Ideal) (m ((c : Thread nD τ).loc main_arg0)) (m ((c : Thread nD τ).loc main_arg3)) (m ((c : Thread nD τ).loc main_arg8)) (m ((c : Thread nD τ).loc main_arg9))) (m ((c : Thread nD τ).loc main_arg4)) (m ((c : Thread nD τ).loc main_arg5)))
    (Cert.Spec.dual (M := 50000) (m ((c : Thread nD τ).loc main_arg0)) (Cert.ReferenceIdeal.RefRun.nhGrid (F := Ideal) (m ((c : Thread nD τ).loc main_arg1)) (m ((c : Thread nD τ).loc main_arg2)) (m ((c : Thread nD τ).loc main_arg6)) (m ((c : Thread nD τ).loc main_arg7))) (m ((c : Thread nD τ).loc main_arg4)) (m ((c : Thread nD τ).loc main_arg5)))
    (m ((c : Thread nD τ).loc main_arg10)) (m ((c : Thread nD τ).loc main_arg11)) (m ((c : Thread nD τ).loc main_arg12))

/-- The category nodes' output array after region 1. -/
theorem cat_eq (c : Dev nD) : W3 m c (Proc.devRef .tc main_v27)
    = Cert.Spec.dual (M := 5000) (m ((c : Thread nD τ).loc main_arg1)) (Cert.ReferenceIdeal.RefRun.nhCat (F := Ideal) (m ((c : Thread nD τ).loc main_arg0)) (m ((c : Thread nD τ).loc main_arg3)) (m ((c : Thread nD τ).loc main_arg8)) (m ((c : Thread nD τ).loc main_arg9))) (m ((c : Thread nD τ).loc main_arg4)) (m ((c : Thread nD τ).loc main_arg5)) :=
  (W3_main_v27 m c).trans ((final1 (V2 m) c).trans (by
    rw [V2_main_arg1, V2_main_v25, v25_eq, V2_main_arg4, V2_main_arg5]))

/-- The grid nodes' output array after region 0. -/
theorem grid_eq (c : Dev nD) : W3 m c (Proc.devRef .tc main_v26)
    = Cert.Spec.dual (M := 50000) (m ((c : Thread nD τ).loc main_arg0)) (Cert.ReferenceIdeal.RefRun.nhGrid (F := Ideal) (m ((c : Thread nD τ).loc main_arg1)) (m ((c : Thread nD τ).loc main_arg2)) (m ((c : Thread nD τ).loc main_arg6)) (m ((c : Thread nD τ).loc main_arg7))) (m ((c : Thread nD τ).loc main_arg4)) (m ((c : Thread nD τ).loc main_arg5)) :=
  (W3_main_v26 m c).trans ((final0 (V1 m) c).trans (by
    rw [V1_main_arg0, v12_eq, V1_main_arg4, V1_main_arg5]))

/-- The kernel program's result buffer ends at `result`. -/
theorem res_eq (c : Dev nD) : W4 m c (Proc.devRef .tc main_v52) = result m c := by
  rw [v52_eq, cat_eq, grid_eq, W3_main_arg10, W3_main_arg11, W3_main_arg12]
  rfl

end Cert.Bridge

/-! ## The claims -/

namespace Cert.Proof.Claims

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- Both programs, run from memories that agree on the arguments, end with `Cert.Bridge.result` of those arguments in
    their result buffers: the kernel program by its run and the closed form of its last valuation, the reference by
    its run, its two layers being the specification. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Bridge.result m c,
    (θ_run Cert.KernelIdeal.defs _ _).mono (fun r h c => ⟨(h c).1.trans (Cert.Bridge.res_eq m c), (h c).2⟩)
      (Cert.KernelIdeal.Hand.run_res (F := Ideal) m ρ), ?_⟩
  refine (θ_run Cert.ReferenceIdeal.defs _ _).mono (fun r h c => ⟨(h c).1.trans ?_, (h c).2⟩)
    (Cert.ReferenceIdeal.RefRun.run (F := Ideal) m' ρ')
  obtain ⟨h0, h1, h2, h3, h4, h5, h6, h7, h8, h9, h10, h11, h12⟩ := hagree c
  rw [h0, h1, h2, h3, h4, h5, h6, h7, h8, h9, h10, h11, h12, Cert.ReferenceIdeal.RefRun.dualG_eq, Cert.ReferenceIdeal.RefRun.dualC_eq]
  rfl

end Cert.Proof.Claims

end
-- ==== Proof.lean ====
/-
  The certificate of a heterograph message-passing layer: two row-tiled kernels against their plain reference.

  Both programs first form, on the host, two neighbourhood sums (rows gathered at source indices, scaled by an
  attention weight, added into the rows at destination indices). The kernel program then runs one kernel over the
  50000 grid nodes in 25 tiles of 2000 rows and one over the 5000 category nodes in 5 tiles of 1000 rows, each tile
  computing  leaky((v + nh)·W + b) + leaky((v ∘ nh)·W + b)  with the products' operands rounded to a narrower float
  format; the reference computes the same expression with whole-array matrix products. Both then gather 3 × 1024 rows
  of the two results and stack them.

  The five claims:
  * the three frames — each program runs to the end without a fault and leaves its thirteen argument arrays as
    launched: the kernel program (as printed, and idealized) as four segments (host operations, kernel, kernel, host
    operations) whose buffer contents are followed from the launch memory; the reference as one line of host operations;
  * the idealization rewrote nothing, so it is the printed program read on the extended reals;
  * on the extended reals the two programs return the same array: a change of float format is the identity, a matrix
    product into a zero accumulator and the host's product are the same sums, a row of the result depends on the same
    row of the operands only (so the tiles assemble to the whole-array function), and the host operations around the
    kernels are the reference's own.
-/
import proofs.«155794_j12773232738836_1_alg».proof.Defs
import proofs.«155794_j12773232738836_1_alg».proof.Proof.Gen.Kernel
import proofs.«155794_j12773232738836_1_alg».proof.Proof.Gen.KernelIdeal
import proofs.«155794_j12773232738836_1_alg».proof.Proof.Gen.ReferenceIdeal
import proofs.«155794_j12773232738836_1_alg».proof.Proof.Gen.Pre_finite_inputs
import proofs.«155794_j12773232738836_1_alg».proof.Proof.Bridge

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
